-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S8192x1024 : Shape := ⟨2, ![8192, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S4x8192x1024 .f32) (main_arg1 : FVec F S8192x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S4x8192x1024 : Shape := ⟨3, ![4, 8192, 1024]⟩
abbrev S8192x1024 : Shape := ⟨2, ![8192, 1024]⟩
abbrev S1x8192x1024 : Shape := ⟨3, ![1, 8192, 1024]⟩
abbrev S2x32x1024 : Shape := ⟨3, ![2, 32, 1024]⟩
abbrev S16x2x32x1024 : Shape := ⟨4, ![16, 2, 32, 1024]⟩
abbrev S2 : Shape := ⟨1, ![2]⟩
abbrev S1x32x1024 : Shape := ⟨3, ![1, 32, 1024]⟩
abbrev S32x1024 : Shape := ⟨2, ![32, 1024]⟩
abbrev S1 : Shape := ⟨1, ![1]⟩
abbrev S_ : Shape := ⟨0, ![]⟩
abbrev S1x1x32x1024 : Shape := ⟨4, ![1, 1, 32, 1024]⟩

abbrev nBuf : Table → Nat
  | .hbm => 3
  | .shared => 1
  | .local .scVector .vmem => 1
  | _ => 0

abbrev bufTy : (tb : Table) → Fin (nBuf tb) → BufTy
  | .hbm, ⟨0, _⟩ => ⟨S4x8192x1024, .f32⟩
  | .hbm, ⟨1, _⟩ => ⟨S8192x1024, .f32⟩
  | .hbm, ⟨2, _⟩ => ⟨S1x8192x1024, .f32⟩
  | .shared, ⟨0, _⟩ => ⟨S16x2x32x1024, .f32⟩
  | .local .scVector .vmem, ⟨0, _⟩ => ⟨S2x32x1024, .f32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch1 : Ref sig .scVector := ⟨.shared, 0, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c0_i32_4 : BitVec 32 := 0#32
  ![v3.toNat, 0]
def k0_off2 (i : grid0.Coords) : Fin 4 → Nat :=
  let arg1 : BitVec 32 := BitVec.ofNat 32 (i 1).val
  let c0_i32_8 : BitVec 32 := 0#32
  let c0_i32_10 : BitVec 32 := 0#32
  let c0_i32_11 : BitVec 32 := 0#32
  ![arg1.toNat, 0, 0, 0]
def k0_off3 (i : grid0.Coords) : Fin 4 → Nat :=
  let arg1 : BitVec 32 := BitVec.ofNat 32 (i 1).val
  let c1_i32_20 : BitVec 32 := 1#32
  let c0_i32_22 : BitVec 32 := 0#32
  let c0_i32_23 : BitVec 32 := 0#32
  ![arg1.toNat, 1, 0, 0]
def k0_off4 (i : grid0.Coords) (c0_i32_34 : BitVec 32) : Fin 3 → Nat :=
  let c0_i32_36 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v42 : BitVec 32 := Scalar.addi v2 c0_i32_34
  let c0_i32_40 : BitVec 32 := 0#32
  ![0, v42.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S2x32x1024_S1x32x1024_0_0_0 : ∀ a, (![0, 0, 0] : Fin 3 → Nat) a + S1x32x1024.size a ≤ S2x32x1024.size a
  squeezes_S1x32x1024_S32x1024 : S1x32x1024.Squeezes S32x1024
  inb_S2_S1_0 : ∀ a, (![0] : Fin 1 → Nat) a + S1.size a ≤ S2.size a
  squeezes_S1_S_ : S1.Squeezes S_
  squeezes_S1x1x32x1024_S32x1024 : S1x1x32x1024.Squeezes S32x1024
  inb_S2x32x1024_S1x32x1024_1_0_0 : ∀ a, (![1, 0, 0] : Fin 3 → Nat) a + S1x32x1024.size a ≤ S2x32x1024.size a
  inb_S2_S1_1 : ∀ a, (![1] : Fin 1 → Nat) a + S1.size a ≤ S2.size a
  hcc0_scratch2 : 0 + S2.numel ≤ 8
  hcc0_scratch3 : 2 + S2.numel ≤ 8
  hcc0_scratch4 : 4 + S2.numel ≤ 8
  hcc0_scratch5 : 6 + S2.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 8), ∀ a, (k0_off1 i (BitVec.ofNat 32 (32 * r.val))) a + S32x1024.size a ≤ S8192x1024.size a
  k0_off2_inb : ∀ i : grid0.Coords, ∀ a, (k0_off2 i) a + S1x1x32x1024.size a ≤ S16x2x32x1024.size a
  k0_off3_inb : ∀ i : grid0.Coords, ∀ a, (k0_off3 i) a + S1x1x32x1024.size a ≤ S16x2x32x1024.size a
  k0_off4_inb : ∀ i : grid0.Coords, ∀ (r : Fin 8), ∀ a, (k0_off4 i (BitVec.ofNat 32 (32 * r.val))) a + S1x32x1024.size a ≤ S1x8192x1024.size a

variable [Facts₀]

abbrev cc0_scratch2 : DmaSems sig S2 := SemArray.consecutive 0 S2 hcc0_scratch2
abbrev cc0_scratch3 : DmaSems sig S2 := SemArray.consecutive 2 S2 hcc0_scratch3
abbrev cc0_scratch4 : DmaSems sig S2 := SemArray.consecutive 4 S2 hcc0_scratch4
abbrev cc0_scratch5 : DmaSems sig S2 := SemArray.consecutive 6 S2 hcc0_scratch5

class Facts : Prop extends Facts₀ where

variable [Facts]
-- ==== ReferenceIdeal.lean ====
abbrev S4x8192x1024 : Shape := ⟨3, ![4, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  bcast_S8192x1024_S1x8192x1024_1_2 : S8192x1024.BroadcastsInDim S1x8192x1024 (![1, 2] : Fin 2 → Fin S1x8192x1024.rank)
  gather_S8192x1024_S8192x1_S8192x1024_1_0_n_n_0_1_11024_wf : GatherDims.WF S8192x1024 S8192x1 S8192x1024 [1] [0] [] [0] [] 1 ![1, 1024]

variable [Facts₀]

def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf

class Facts : Prop extends Facts₀ where

variable [Facts]
-- ==== Proof.Spec.lean ====
/-
  What both programs compute: the table's row `r`, column `c` under one leading unit axis,
  `out (0, r, c) = table (r, c)` for `r < 8192`, `c < 1024`.  The kernel reaches it by copying the table
  through on-chip buffers, thirty-two rows at a time; the reference by taking row `r` of the table for `r = 0, 1, …, 8191`.
-/
import Idealize.ShloMosaic.Lib.ValueIdx

noncomputable section

namespace Cert.Spec

open Idealize.ShloMosaic Idealize.ShloMosaic.ValueIdx

/-- The table under a leading axis of extent one: entry `(0, r, c)` is the table's entry `(r, c)`. -/
def lift {α : Type} (table : (⟨2, ![8192, 1024]⟩ : Shape).Idx → α) : (⟨3, ![1, 8192, 1024]⟩ : Shape).Idx → α :=
  fun j => table (ix2 (j 1) (j 2))

theorem lift_apply {α : Type} (table : (⟨2, ![8192, 1024]⟩ : Shape).Idx → α) (j : (⟨3, ![1, 8192, 1024]⟩ : Shape).Idx) :
    lift table j = table (ix2 (j 1) (j 2)) := rfl

end Cert.Spec

end
-- ==== Proof.BitsSetup.lean ====
/-
  The copy kernel as the launch theorem sees it: the program's configuration, the ghost state (the handshakes' rounds
  beside the transfers' counters), and the pieces of memory one vector subcore's task works on.  Subcore `s` of
  SparseCore `c` moves rows `[512 s + 256 c, 512 s + 256 c + 256)` of the table, thirty-two rows at a time: the
  even chunks through the two halves of its own vector memory, the odd chunks through its two slots of the
  SparseCore's shared memory.  Rows are counted in blocks of thirty-two: chunk `k` of that subcore is block
  `16 s + 8 c + k` of the 256 blocks of the table, and of the result.
-/
import proofs.«210063_g2302102470798_cont_8to1_71_18_alg».proof.Defs
import proofs.«210063_g2302102470798_cont_8to1_71_18_alg».proof.Proof.Gen.Kernel
import proofs.«210063_g2302102470798_cont_8to1_71_18_alg».proof.Proof.Gen.Kernel.Skeleton
import proofs.«210063_g2302102470798_cont_8to1_71_18_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.Bits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays and the scratch memories -/

abbrev eLoc (d : Dev nD) : Loc nD τ sig := (SparseCore.T d).loc main_arg1
abbrev xLoc (d : Dev nD) : Loc nD τ sig := (SparseCore.T d).loc main_arg0
abbrev oLoc (d : Dev nD) : Loc nD τ sig := (SparseCore.T d).loc main_v0

/-- SparseCore `c`'s shared memory, as each of its vector subcores addresses it. -/
abbrev shRef (c : Fin τ.nSC) : DevRef τ sig := ⟨.shared, ⟨0, by decide⟩, c⟩
abbrev shLoc (d : Dev nD) (c : Fin τ.nSC) : Loc nD τ sig := (d, shRef c)

abbrev eV : Memref sig .scVector .hbm S8192x1024 .f32 := Memref.whole main_arg1_scv
abbrev oV : Memref sig .scVector .hbm S1x8192x1024 .f32 := Memref.whole main_v0_scv
abbrev tV : Memref sig .scVector .vmem S2x32x1024 .f32 := Memref.whole cc0_scratch0
abbrev sV : Memref sig .scVector .shared S16x2x32x1024 .f32 := Memref.whole cc0_scratch1

/-- Thirty-two rows of the table from the row the word `w` names, as the task slices them. -/
abbrev eCh (L : grid0.Coords) (w : BitVec 32) (h : ∀ a, (k0_off1 L w) a + S32x1024.size a ≤ S8192x1024.size a) :
    Memref sig .scVector .hbm S32x1024 .f32 :=
  (eV).slice (Rect.unit (s := S8192x1024) (k0_off1 L w) S32x1024.size h) (fun _ => rfl)
/-- The same rows of the result. -/
abbrev oCh (L : grid0.Coords) (w : BitVec 32) (h : ∀ a, (k0_off4 L w) a + S1x32x1024.size a ≤ S1x8192x1024.size a) :
    Memref sig .scVector .hbm S32x1024 .f32 :=
  ((oV).slice (Rect.unit (s := S1x8192x1024) (k0_off4 L w) S1x32x1024.size h) (fun _ => rfl)).squeeze S32x1024 squeezes_S1x32x1024_S32x1024
/-- The two halves of a subcore's own vector memory. -/
abbrev tSl0 : Memref sig .scVector .vmem S32x1024 .f32 :=
  ((tV).slice (Rect.unit (s := S2x32x1024) ![0, 0, 0] S1x32x1024.size inb_S2x32x1024_S1x32x1024_0_0_0) (fun _ => rfl)).squeeze S32x1024 squeezes_S1x32x1024_S32x1024
abbrev tSl1 : Memref sig .scVector .vmem S32x1024 .f32 :=
  ((tV).slice (Rect.unit (s := S2x32x1024) ![1, 0, 0] S1x32x1024.size inb_S2x32x1024_S1x32x1024_1_0_0) (fun _ => rfl)).squeeze S32x1024 squeezes_S1x32x1024_S32x1024
/-- A subcore's two slots of the shared memory. -/
abbrev sSl0 (L : grid0.Coords) : Memref sig .scVector .shared S32x1024 .f32 :=
  ((sV).slice (Rect.unit (s := S16x2x32x1024) (k0_off2 L) S1x1x32x1024.size (k0_off2_inb L)) (fun _ => rfl)).squeeze S32x1024 squeezes_S1x1x32x1024_S32x1024
abbrev sSl1 (L : grid0.Coords) : Memref sig .scVector .shared S32x1024 .f32 :=
  ((sV).slice (Rect.unit (s := S16x2x32x1024) (k0_off3 L) S1x1x32x1024.size (k0_off3_inb L)) (fun _ => rfl)).squeeze S32x1024 squeezes_S1x1x32x1024_S32x1024

/-- The eight transfer semaphores of a task, as it names them. -/
abbrev semA0 : DmaSems sig S_ := ((cc0_scratch2).slice (Rect.unit (s := S2) ![0] S1.size inb_S2_S1_0)).squeeze S_ squeezes_S1_S_
abbrev semA1 : DmaSems sig S_ := ((cc0_scratch2).slice (Rect.unit (s := S2) ![1] S1.size inb_S2_S1_1)).squeeze S_ squeezes_S1_S_
abbrev semB0 : DmaSems sig S_ := ((cc0_scratch3).slice (Rect.unit (s := S2) ![0] S1.size inb_S2_S1_0)).squeeze S_ squeezes_S1_S_
abbrev semB1 : DmaSems sig S_ := ((cc0_scratch3).slice (Rect.unit (s := S2) ![1] S1.size inb_S2_S1_1)).squeeze S_ squeezes_S1_S_
abbrev semC0 : DmaSems sig S_ := ((cc0_scratch4).slice (Rect.unit (s := S2) ![0] S1.size inb_S2_S1_0)).squeeze S_ squeezes_S1_S_
abbrev semC1 : DmaSems sig S_ := ((cc0_scratch4).slice (Rect.unit (s := S2) ![1] S1.size inb_S2_S1_1)).squeeze S_ squeezes_S1_S_
abbrev semD0 : DmaSems sig S_ := ((cc0_scratch5).slice (Rect.unit (s := S2) ![0] S1.size inb_S2_S1_0)).squeeze S_ squeezes_S1_S_
abbrev semD1 : DmaSems sig S_ := ((cc0_scratch5).slice (Rect.unit (s := S2) ![1] S1.size inb_S2_S1_1)).squeeze S_ squeezes_S1_S_

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

end Cert.Proof.Bits

end
-- ==== Proof.BitsViews.lean ====
/-
  How the arrays and the scratch memories fall into the pieces the tasks work on.
  The table and the result are each 256 blocks of thirty-two rows; block `16 s + 8 c + k` is chunk `k` of
  subcore `s` of SparseCore `c`, so the blocks, taken over all `c < 2`, `s < 16`, `k < 8`, are pairwise disjoint
  and cover the array.  A subcore's vector memory is its two halves; row `s` of a SparseCore's shared memory is the
  two slots subcore `s` uses.
-/
import proofs.«210063_g2302102470798_cont_8to1_71_18_alg».proof.Proof.BitsSetup

noncomputable section

namespace Cert.Proof.Bits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Blocks of thirty-two rows -/

theorem hdivE : 256 ∣ S8192x1024.size 0 := ⟨32, rfl⟩
theorem hdivO : 256 ∣ S1x8192x1024.size 1 := ⟨32, rfl⟩
abbrev eBlk (b : Fin 256) : Rect S8192x1024 := Rect.part (s := S8192x1024) (a₀ := 0) hdivE b
abbrev oBlk (b : Fin 256) : Rect S1x8192x1024 := Rect.part (s := S1x8192x1024) (a₀ := 1) hdivO b
abbrev eSet (b : Fin 256) : Finset S8192x1024.Idx := ((eV).view.slice (eBlk b)).set
abbrev oSet (b : Fin 256) : Finset S1x8192x1024.Idx := ((oV).view.slice (oBlk b)).set

/-- Block `n` of the table's rows, for `n < 256` (no element otherwise). -/
def eSetN (n : ℕ) : Finset S8192x1024.Idx := if h : n < 256 then eSet ⟨n, h⟩ else ∅
/-- Block `n` of the result's rows. -/
def oSetN (n : ℕ) : Finset S1x8192x1024.Idx := if h : n < 256 then oSet ⟨n, h⟩ else ∅

theorem eSetN_lt {n : ℕ} (h : n < 256) : eSetN n = eSet ⟨n, h⟩ := dif_pos h
theorem oSetN_lt {n : ℕ} (h : n < 256) : oSetN n = oSet ⟨n, h⟩ := dif_pos h

theorem eSet_eq (b : Fin 256) : eSet b = (eBlk b).set := by
  show ((View.whole (main_arg1_scv : Ref sig .scVector)).slice (eBlk b)).set = _
  rw [View.set_slice]; exact Finset.map_refl
theorem oSet_eq (b : Fin 256) : oSet b = (oBlk b).set := by
  show ((View.whole (main_v0_scv : Ref sig .scVector)).slice (oBlk b)).set = _
  rw [View.set_slice]; exact Finset.map_refl

theorem e_disjoint : ∀ i ∈ (Finset.univ : Finset (Fin 256)), ∀ j ∈ (Finset.univ : Finset (Fin 256)), i ≠ j → Disjoint (eSet i) (eSet j) :=
  fun i _ j _ h => by rw [eSet_eq, eSet_eq]; exact Rect.part_disjoint hdivE h
theorem o_disjoint : ∀ i ∈ (Finset.univ : Finset (Fin 256)), ∀ j ∈ (Finset.univ : Finset (Fin 256)), i ≠ j → Disjoint (oSet i) (oSet j) :=
  fun i _ j _ h => by rw [oSet_eq, oSet_eq]; exact Rect.part_disjoint hdivO h
theorem e_cover : (Finset.univ : Finset (Fin 256)).biUnion eSet = Finset.univ :=
  (Finset.biUnion_congr rfl fun i _ => eSet_eq i).trans (Rect.biUnion_part hdivE)
theorem o_cover : (Finset.univ : Finset (Fin 256)).biUnion oSet = Finset.univ :=
  (Finset.biUnion_congr rfl fun i _ => oSet_eq i).trans (Rect.biUnion_part hdivO)

/-- Block `16 s + 8 c + k` from `(c, s, k)`: a bijection of `2 × 16 × 8` onto the 256 blocks. -/
def blkEquiv : Fin 2 × Fin 16 × Fin 8 ≃ Fin 256 where
  toFun x := ⟨16 * x.2.1.val + 8 * x.1.val + x.2.2.val, by have := x.1.isLt; have := x.2.1.isLt; have := x.2.2.isLt; omega⟩
  invFun b := (⟨b.val % 16 / 8, by have := b.isLt; omega⟩, ⟨b.val / 16, by have := b.isLt; omega⟩, ⟨b.val % 8, by omega⟩)
  left_inv x := by
    obtain ⟨c, s, k⟩ := x
    have := c.isLt; have := s.isLt; have := k.isLt
    refine Prod.ext (Fin.ext ?_) (Prod.ext (Fin.ext ?_) (Fin.ext ?_)) <;> simp only <;> omega
  right_inv b := by
    have := b.isLt
    refine Fin.ext ?_; simp only; omega

theorem bigSep_blocks (Φ : ℕ → sProp 𝕄) :
    (bigSep Finset.univ fun b : Fin 256 => Φ b.val)
      = bigSep Finset.univ fun c : Fin 2 => bigSep Finset.univ fun s : Fin 16 => bigSep Finset.univ fun k : Fin 8 => Φ (16 * s.val + 8 * c.val + k.val) := by
  rw [bigSep_univ_equiv blkEquiv (fun b : Fin 256 => Φ b.val), bigSep_univ_prod]
  refine bigSep_congr fun c _ => ?_
  rw [bigSep_univ_prod]
  rfl

/-- The table whole is its blocks. -/
theorem ePts_blocks (d : Dev nD) (f : Buf (Elt F) (eLoc d)) :
    (eLoc d ↦{fullShare} f : sProp 𝕄)
      = bigSep Finset.univ fun c : Fin 2 => bigSep Finset.univ fun s : Fin 16 => bigSep Finset.univ fun k : Fin 8 =>
          eLoc d ↦[eSetN (16 * s.val + 8 * c.val + k.val)]{fullShare} f := by
  rw [← bigSep_blocks (F := F) (fun n => eLoc d ↦[eSetN n]{fullShare} f)]
  rw [show (bigSep Finset.univ fun b : Fin 256 => (eLoc d ↦[eSetN b.val]{fullShare} f : sProp 𝕄))
      = bigSep Finset.univ fun b : Fin 256 => eLoc d ↦[eSet b]{fullShare} f from bigSep_congr fun b _ => by rw [eSetN_lt b.isLt]]
  rw [← pointsTo_biUnion Finset.univ (ℓ := eLoc d) eSet e_disjoint, e_cover]; try rfl
/-- The result whole is its blocks. -/
theorem oPts_blocks (d : Dev nD) (f : Buf (Elt F) (oLoc d)) :
    (oLoc d ↦{fullShare} f : sProp 𝕄)
      = bigSep Finset.univ fun c : Fin 2 => bigSep Finset.univ fun s : Fin 16 => bigSep Finset.univ fun k : Fin 8 =>
          oLoc d ↦[oSetN (16 * s.val + 8 * c.val + k.val)]{fullShare} f := by
  rw [← bigSep_blocks (F := F) (fun n => oLoc d ↦[oSetN n]{fullShare} f)]
  rw [show (bigSep Finset.univ fun b : Fin 256 => (oLoc d ↦[oSetN b.val]{fullShare} f : sProp 𝕄))
      = bigSep Finset.univ fun b : Fin 256 => oLoc d ↦[oSet b]{fullShare} f from bigSep_congr fun b _ => by rw [oSetN_lt b.isLt]]
  rw [← pointsTo_biUnion Finset.univ (ℓ := oLoc d) oSet o_disjoint, o_cover]; try rfl

/-! ## The chunks a task slices are those blocks -/

section Tile

variable (L : grid0.Coords)

theorem L0_lt : (L 0).val < 2 := (L 0).isLt
theorem L1_lt : (L 1).val < 16 := (L 1).isLt

/-- The block number of chunk `k` of the task at `L`. -/
abbrev blkOf (k : Fin 8) : ℕ := 16 * (L 1).val + 8 * (L 0).val + k.val
theorem blkOf_lt (k : Fin 8) : blkOf L k < 256 := by
  have := L0_lt L; have := L1_lt L; have := k.isLt; unfold blkOf; omega

theorem eRect_eq (k : Fin 8) :
    Rect.unit (s := S8192x1024) (k0_off1 L (BitVec.ofNat 32 (32 * k.val))) S32x1024.size (k0_off1_inb L k) = eBlk ⟨blkOf L k, blkOf_lt L k⟩ := by
  unfold eBlk Rect.part Rect.block
  congr 1 <;> funext a
  · rw [k0_off1_eq]
    match a with
    | 0 => simp [Shape.partIx, Shape.partSize, blkOf]; omega
    | 1 => simp [Shape.partIx, Shape.partSize]
  · match a with
    | 0 => simp [Shape.partSize]
    | 1 => simp [Shape.partSize]

theorem oRect_eq (k : Fin 8) :
    Rect.unit (s := S1x8192x1024) (k0_off4 L (BitVec.ofNat 32 (32 * k.val))) S1x32x1024.size (k0_off4_inb L k) = oBlk ⟨blkOf L k, blkOf_lt L k⟩ := by
  unfold oBlk Rect.part Rect.block
  congr 1 <;> funext a
  · rw [k0_off4_eq]
    match a with
    | 0 => simp [Shape.partIx, Shape.partSize]
    | 1 => simp [Shape.partIx, Shape.partSize, blkOf]; omega
    | 2 => simp [Shape.partIx, Shape.partSize]
  · match a with
    | 0 => simp [Shape.partSize]
    | 1 => simp [Shape.partSize]
    | 2 => simp [Shape.partSize]

theorem set_eCh (k : Fin 8) : (eCh L (BitVec.ofNat 32 (32 * k.val)) (k0_off1_inb L k)).view.set = eSetN (blkOf L k) := by
  rw [eSetN_lt (blkOf_lt L k)]
  show ((eV).view.slice (Rect.unit (s := S8192x1024) (k0_off1 L (BitVec.ofNat 32 (32 * k.val))) S32x1024.size (k0_off1_inb L k))).set
    = ((eV).view.slice (eBlk ⟨blkOf L k, blkOf_lt L k⟩)).set
  exact eRect_eq L k ▸ rfl

theorem set_oCh (k : Fin 8) : (oCh L (BitVec.ofNat 32 (32 * k.val)) (k0_off4_inb L k)).view.set = oSetN (blkOf L k) := by
  rw [oSetN_lt (blkOf_lt L k)]
  show (((oV).view.slice (Rect.unit (s := S1x8192x1024) (k0_off4 L (BitVec.ofNat 32 (32 * k.val))) S1x32x1024.size (k0_off4_inb L k))).reshape S32x1024
      squeezes_S1x32x1024_S32x1024.numel_eq).set = ((oV).view.slice (oBlk ⟨blkOf L k, blkOf_lt L k⟩)).set
  rw [View.set_reshape]
  exact oRect_eq L k ▸ rfl

end Tile

end Cert.Proof.Bits

end
-- ==== Proof.LibWholePiece.lean ====
/-
  A view one of whose listed pieces is the whole view, written last: it reads back that piece, whatever the buffer held
  and whatever pieces were listed before it.
-/
import Idealize.ShloMosaic.Lib.Writes

namespace Cert.LibWholePiece

open Idealize.ShloMosaic

variable {sig : RefSig} {κ : Kind} {sp : Space} {s : Shape} {e : EltTy} {Val : EltTy → Type}

/-- After a piece covering the whole view, the view reads that piece's payload: earlier pieces and the prior contents
    are all overwritten. -/
theorem read_writes_whole_cons (v : View sig κ sp s e) (f : v.ty.Contents Val) (w : s.Idx → Val e) (L : List (View.Piece Val s e)) :
    v.read Val (v.writes Val f (⟨Rect.whole s, w⟩ :: L)) = w := by
  funext y
  have h := View.read_writes_cons_emb v f (Rect.whole s) w L y
  rwa [Rect.emb_whole_apply] at h

end Cert.LibWholePiece
-- ==== Proof.BitsPieces.lean ====
/-
  The pieces of memory one vector subcore's task works on, as the task's own slices address them: its eight chunks of
  the table and of the result (blocks of thirty-two rows), the two halves of its own vector memory, and its two slots
  of the shared memory.  And what a chunk of the result holds once the table's chunk of the same number has been copied
  into it through a buffer: chunk `k` of the result lies at rows `512 s + 256 c + 32 k + y`, `y < 32`, behind the
  leading coordinate `0`, the table's chunk at the same rows, so entry `(0, r, c)` of the result is entry `(r, c)` of
  the table.
-/
import proofs.«210063_g2302102470798_cont_8to1_71_18_alg».proof.Proof.BitsViews
import proofs.«210063_g2302102470798_cont_8to1_71_18_alg».proof.Proof.LibWholePiece

noncomputable section

namespace Cert.Proof.Bits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.LibWholePiece

variable {F : FTy → Type}

local notation "𝕄" => MT nD τ sig (HIx 1) (Elt F) ℕ UU ℕ

/-! ## The halves of a subcore's vector memory, and its slots of the shared memory -/

theorem hdivT : 2 ∣ S2x32x1024.size 0 := ⟨1, rfl⟩
abbrev tBlk (j : Fin 2) : Rect S2x32x1024 := Rect.part (s := S2x32x1024) (a₀ := 0) hdivT j
abbrev tSet (j : Fin 2) : Finset S2x32x1024.Idx := ((tV).view.slice (tBlk j)).set

theorem tSet_eq (j : Fin 2) : tSet j = (tBlk j).set := by
  show ((View.whole (cc0_scratch0 : Ref sig .scVector)).slice (tBlk j)).set = _
  rw [View.set_slice]; exact Finset.map_refl
theorem t_disjoint : Disjoint (tSet 0) (tSet 1) := by
  rw [tSet_eq, tSet_eq]; exact Rect.part_disjoint hdivT (by decide)
theorem t_cover : tSet 0 ∪ tSet 1 = Finset.univ := by
  have h := Rect.biUnion_part (s := S2x32x1024) (a₀ := 0) hdivT
  rw [show (Finset.univ : Finset (Fin 2)) = {0, 1} by decide, Finset.biUnion_insert, Finset.singleton_biUnion] at h
  rw [tSet_eq, tSet_eq]; exact h

theorem tRect0_eq : Rect.unit (s := S2x32x1024) ![0, 0, 0] S1x32x1024.size inb_S2x32x1024_S1x32x1024_0_0_0 = tBlk 0 := by
  unfold tBlk Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
theorem tRect1_eq : Rect.unit (s := S2x32x1024) ![1, 0, 0] S1x32x1024.size inb_S2x32x1024_S1x32x1024_1_0_0 = tBlk 1 := by
  unfold tBlk Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem set_tSl0 : (tSl0).view.set = tSet 0 := by
  show (((tV).view.slice (Rect.unit (s := S2x32x1024) ![0, 0, 0] S1x32x1024.size inb_S2x32x1024_S1x32x1024_0_0_0)).reshape S32x1024
      squeezes_S1x32x1024_S32x1024.numel_eq).set = ((tV).view.slice (tBlk 0)).set
  rw [View.set_reshape]
  exact tRect0_eq ▸ rfl
theorem set_tSl1 : (tSl1).view.set = tSet 1 := by
  show (((tV).view.slice (Rect.unit (s := S2x32x1024) ![1, 0, 0] S1x32x1024.size inb_S2x32x1024_S1x32x1024_1_0_0)).reshape S32x1024
      squeezes_S1x32x1024_S32x1024.numel_eq).set = ((tV).view.slice (tBlk 1)).set
  rw [View.set_reshape]
  exact tRect1_eq ▸ rfl

/-- Slot `j` of row `s` of a SparseCore's shared memory. -/
theorem shInb (s : Fin 16) (j : Fin 2) : ∀ a, (![s.val, j.val, 0, 0] : Fin 4 → ℕ) a + S1x1x32x1024.size a ≤ S16x2x32x1024.size a := by
  intro a
  have := s.isLt; have := j.isLt
  match a with
  | 0 => simp <;> omega
  | 1 => simp <;> omega
  | 2 => simp
  | 3 => simp
abbrev shRect (s : Fin 16) (j : Fin 2) : Rect S16x2x32x1024 := Rect.unit (s := S16x2x32x1024) ![s.val, j.val, 0, 0] S1x1x32x1024.size (shInb s j)
abbrev shSet (p : Fin 16 × Fin 2) : Finset S16x2x32x1024.Idx := ((sV).view.slice (shRect p.1 p.2)).set

/-- Slot `j` of row `s`, for `s < 16` and `j < 2` (no element otherwise). -/
def shSetN (s j : ℕ) : Finset S16x2x32x1024.Idx := if h : s < 16 ∧ j < 2 then shSet (⟨s, h.1⟩, ⟨j, h.2⟩) else ∅
theorem shSetN_lt {s j : ℕ} (hs : s < 16) (hj : j < 2) : shSetN s j = shSet (⟨s, hs⟩, ⟨j, hj⟩) := dif_pos ⟨hs, hj⟩

section Tile

variable (d : Dev nD) (L : grid0.Coords)

abbrev jL : Fin 16 := ⟨(L 1).val, L1_lt L⟩

theorem sRect0_eq : Rect.unit (s := S16x2x32x1024) (k0_off2 L) S1x1x32x1024.size (k0_off2_inb L) = shRect (jL L) 0 := by
  unfold shRect
  congr 1
  rw [k0_off2_eq]; rfl
theorem sRect1_eq : Rect.unit (s := S16x2x32x1024) (k0_off3 L) S1x1x32x1024.size (k0_off3_inb L) = shRect (jL L) 1 := by
  unfold shRect
  congr 1
  rw [k0_off3_eq]; rfl

theorem set_sSl0 : (sSl0 L).view.set = shSet (jL L, 0) := by
  show (((sV).view.slice (Rect.unit (s := S16x2x32x1024) (k0_off2 L) S1x1x32x1024.size (k0_off2_inb L))).reshape S32x1024
      squeezes_S1x1x32x1024_S32x1024.numel_eq).set = ((sV).view.slice (shRect (jL L) 0)).set
  rw [View.set_reshape]
  exact sRect0_eq L ▸ rfl
theorem set_sSl1 : (sSl1 L).view.set = shSet (jL L, 1) := by
  show (((sV).view.slice (Rect.unit (s := S16x2x32x1024) (k0_off3 L) S1x1x32x1024.size (k0_off3_inb L))).reshape S32x1024
      squeezes_S1x1x32x1024_S32x1024.numel_eq).set = ((sV).view.slice (shRect (jL L) 1)).set
  rw [View.set_reshape]
  exact sRect1_eq L ▸ rfl

abbrev tLoc : Loc nD τ sig := (V d (cV L) (jV L)).loc cc0_scratch0

/-! ## The pieces as the task's memrefs address them -/

theorem pts_eCh (k : Fin 8) (f : Buf (Elt F) (eLoc d)) :
    ((eCh L (BitVec.ofNat 32 (32 * k.val)) (k0_off1_inb L k)).view.loc (V d (cV L) (jV L))
        ↦[(eCh L (BitVec.ofNat 32 (32 * k.val)) (k0_off1_inb L k)).view.set]{fullShare} f : sProp 𝕄)
      = eLoc d ↦[eSetN (blkOf L k)]{fullShare} f := by
  rw [set_eCh]
theorem pts_oCh (k : Fin 8) (f : Buf (Elt F) (oLoc d)) :
    ((oCh L (BitVec.ofNat 32 (32 * k.val)) (k0_off4_inb L k)).view.loc (V d (cV L) (jV L))
        ↦[(oCh L (BitVec.ofNat 32 (32 * k.val)) (k0_off4_inb L k)).view.set]{fullShare} f : sProp 𝕄)
      = oLoc d ↦[oSetN (blkOf L k)]{fullShare} f := by
  rw [set_oCh]
theorem pts_tSl0 (f : Buf (Elt F) (tLoc d L)) :
    ((tSl0).view.loc (V d (cV L) (jV L)) ↦[(tSl0).view.set]{fullShare} f : sProp 𝕄) = tLoc d L ↦[tSet 0]{fullShare} f := by
  rw [set_tSl0]
theorem pts_tSl1 (f : Buf (Elt F) (tLoc d L)) :
    ((tSl1).view.loc (V d (cV L) (jV L)) ↦[(tSl1).view.set]{fullShare} f : sProp 𝕄) = tLoc d L ↦[tSet 1]{fullShare} f := by
  rw [set_tSl1]
theorem pts_sSl0 (f : Buf (Elt F) (shLoc d (cV L))) :
    ((sSl0 L).view.loc (V d (cV L) (jV L)) ↦[(sSl0 L).view.set]{fullShare} f : sProp 𝕄) = shLoc d (cV L) ↦[shSetN (L 1).val 0]{fullShare} f := by
  rw [set_sSl0, shSetN_lt (L1_lt L) (by decide)]; rfl
theorem pts_sSl1 (f : Buf (Elt F) (shLoc d (cV L))) :
    ((sSl1 L).view.loc (V d (cV L) (jV L)) ↦[(sSl1 L).view.set]{fullShare} f : sProp 𝕄) = shLoc d (cV L) ↦[shSetN (L 1).val 1]{fullShare} f := by
  rw [set_sSl1, shSetN_lt (L1_lt L) (by decide)]; rfl

/-- A subcore's vector memory whole is its two halves. -/
theorem tPts_halves (f : Buf (Elt F) (tLoc d L)) :
    (tLoc d L ↦{fullShare} f : sProp 𝕄) = iprop((tLoc d L ↦[tSet 0]{fullShare} f) ∗ tLoc d L ↦[tSet 1]{fullShare} f) := by
  have h := pointsTo_union (ℓ := tLoc d L) (q := fullShare) (f := f) (U := UU) (Ix := HIx 1) (Name := ℕ) (Lvl := ℕ) t_disjoint
  rw [t_cover] at h
  exact BI.equiv_iff.mp ⟨h.1, h.2⟩
/-- The two halves, each at contents of its own, are the memory whole at some contents. -/
theorem tHalves_join :
    iprop((∃ f, tLoc d L ↦[tSet 0]{fullShare} f) ∗ ∃ f, tLoc d L ↦[tSet 1]{fullShare} f) ⊢ (iprop(∃ f, tLoc d L ↦{fullShare} f) : sProp 𝕄) := by
  iintro ⟨⟨%f0, H0⟩, %f1, H1⟩
  ihave H := (pointsTo_join (ℓ := tLoc d L) (q := fullShare) (f := f0) (g := f1) t_disjoint) $$ [H0 H1]
  · isplitl [H0] <;> iassumption
  rw [t_cover]
  iexists _; iexact H

/-! ## What a chunk of the result holds once the table's chunk has been copied into it -/

theorem squeeze_idx (y : S32x1024.Idx) :
    Shape.reshapeEquiv (s := S1x32x1024) (s' := S32x1024) squeezes_S1x32x1024_S32x1024.numel_eq y = (ix3 (0 : Fin 1) (y 0 : Fin 32) (y 1 : Fin 1024) : S1x32x1024.Idx) := by
  refine Shape.reshapeEquiv_eq_of_rowMajor _ ?_
  rw [Shape.rowMajor_val_three, Shape.rowMajor_val_two]
  simp

theorem emb_match (k : Fin 8) (y : S32x1024.Idx) :
    (eCh L (BitVec.ofNat 32 (32 * k.val)) (k0_off1_inb L k)).view.emb y
      = ix2 (((oCh L (BitVec.ofNat 32 (32 * k.val)) (k0_off4_inb L k)).view.emb y) 1) (((oCh L (BitVec.ofNat 32 (32 * k.val)) (k0_off4_inb L k)).view.emb y) 2) := by
  have h1 : k0_off1 L (BitVec.ofNat 32 (32 * k.val)) 0 = 512 * (L 1).val + 256 * (L 0).val + 32 * k.val := by rw [k0_off1_eq]; rfl
  have h4 : k0_off4 L (BitVec.ofNat 32 (32 * k.val)) 1 = 512 * (L 1).val + 256 * (L 0).val + 32 * k.val := by rw [k0_off4_eq]; rfl
  have h1' : k0_off1 L (BitVec.ofNat 32 (32 * k.val)) 1 = 0 := by rw [k0_off1_eq]; rfl
  have h4' : k0_off4 L (BitVec.ofNat 32 (32 * k.val)) 2 = 0 := by rw [k0_off4_eq]; rfl
  funext a
  apply Fin.ext
  match a with
  | 0 =>
    show ((Rect.unit (s := S8192x1024) (k0_off1 L (BitVec.ofNat 32 (32 * k.val))) S32x1024.size (k0_off1_inb L k)).emb y 0 : ℕ)
      = ((Rect.unit (s := S1x8192x1024) (k0_off4 L (BitVec.ofNat 32 (32 * k.val))) S1x32x1024.size (k0_off4_inb L k)).emb
          (Shape.reshapeEquiv squeezes_S1x32x1024_S32x1024.numel_eq y) 1 : ℕ)
    rw [Rect.emb_apply, Rect.emb_apply]
    simp only [Rect.off_unit, Rect.stride_unit]
    rw [squeeze_idx, h1, h4]
  | 1 =>
    show ((Rect.unit (s := S8192x1024) (k0_off1 L (BitVec.ofNat 32 (32 * k.val))) S32x1024.size (k0_off1_inb L k)).emb y 1 : ℕ)
      = ((Rect.unit (s := S1x8192x1024) (k0_off4 L (BitVec.ofNat 32 (32 * k.val))) S1x32x1024.size (k0_off4_inb L k)).emb
          (Shape.reshapeEquiv squeezes_S1x32x1024_S32x1024.numel_eq y) 2 : ℕ)
    rw [Rect.emb_apply, Rect.emb_apply]
    simp only [Rect.off_unit, Rect.stride_unit]
    rw [squeeze_idx, h1', h4']

/-- A chunk of the result that reads what the table's chunk of the same number reads holds, on its own elements, the
    table's rows under the leading unit axis. -/
theorem chunk_value (k : Fin 8) (fe : Buf (Elt F) (eLoc d)) (g : Buf (Elt F) (oLoc d))
    (hg : (oCh L (BitVec.ofNat 32 (32 * k.val)) (k0_off4_inb L k)).view.read (Elt F) g
      = (eCh L (BitVec.ofNat 32 (32 * k.val)) (k0_off1_inb L k)).view.read (Elt F) fe) :
    ∀ i ∈ oSetN (blkOf L k), g i = Cert.Spec.lift fe i := by
  intro i hi
  rw [← set_oCh L k] at hi
  obtain ⟨y, -, rfl⟩ := Finset.mem_map.mp hi
  have h := congrFun hg y
  rw [View.read_apply, View.read_apply, cast_eq, cast_eq] at h
  rw [Cert.Spec.lift_apply]
  exact h.trans (congrArg fe (emb_match L k y))

theorem done_oCh (k : Fin 8) (fe : Buf (Elt F) (eLoc d)) (fo : Buf (Elt F) (oLoc d)) (P : S32x1024.Idx → Elt F .f32)
    (hP : P = (eCh L (BitVec.ofNat 32 (32 * k.val)) (k0_off1_inb L k)).view.read (Elt F) fe) :
    ((oCh L (BitVec.ofNat 32 (32 * k.val)) (k0_off4_inb L k)).view.loc (V d (cV L) (jV L))
        ↦[(oCh L (BitVec.ofNat 32 (32 * k.val)) (k0_off4_inb L k)).view.set]{fullShare}
        (oCh L (BitVec.ofNat 32 (32 * k.val)) (k0_off4_inb L k)).view.writes (Elt F) fo [⟨Rect.whole S32x1024, P⟩] : sProp 𝕄)
      = oLoc d ↦[oSetN (blkOf L k)]{fullShare} Cert.Spec.lift fe := by
  rw [pts_oCh]
  exact pointsTo_congr (chunk_value d L k fe _ (by rw [read_writes_whole_cons, hP]))

theorem pts_eCh0 (f : Buf (Elt F) (eLoc d)) :
    ((eCh L 0#32 (k0_off1_inb L 0)).view.loc (V d (cV L) (jV L)) ↦[(eCh L 0#32 (k0_off1_inb L 0)).view.set]{fullShare} f : sProp 𝕄)
      = eLoc d ↦[eSetN (blkOf L 0)]{fullShare} f := pts_eCh d L 0 f
theorem pts_eCh1 (f : Buf (Elt F) (eLoc d)) :
    ((eCh L 32#32 (k0_off1_inb L 1)).view.loc (V d (cV L) (jV L)) ↦[(eCh L 32#32 (k0_off1_inb L 1)).view.set]{fullShare} f : sProp 𝕄)
      = eLoc d ↦[eSetN (blkOf L 1)]{fullShare} f := pts_eCh d L 1 f
theorem pts_eCh2 (f : Buf (Elt F) (eLoc d)) :
    ((eCh L 64#32 (k0_off1_inb L 2)).view.loc (V d (cV L) (jV L)) ↦[(eCh L 64#32 (k0_off1_inb L 2)).view.set]{fullShare} f : sProp 𝕄)
      = eLoc d ↦[eSetN (blkOf L 2)]{fullShare} f := pts_eCh d L 2 f
theorem pts_eCh3 (f : Buf (Elt F) (eLoc d)) :
    ((eCh L 96#32 (k0_off1_inb L 3)).view.loc (V d (cV L) (jV L)) ↦[(eCh L 96#32 (k0_off1_inb L 3)).view.set]{fullShare} f : sProp 𝕄)
      = eLoc d ↦[eSetN (blkOf L 3)]{fullShare} f := pts_eCh d L 3 f
theorem pts_eCh4 (f : Buf (Elt F) (eLoc d)) :
    ((eCh L 128#32 (k0_off1_inb L 4)).view.loc (V d (cV L) (jV L)) ↦[(eCh L 128#32 (k0_off1_inb L 4)).view.set]{fullShare} f : sProp 𝕄)
      = eLoc d ↦[eSetN (blkOf L 4)]{fullShare} f := pts_eCh d L 4 f
theorem pts_eCh5 (f : Buf (Elt F) (eLoc d)) :
    ((eCh L 160#32 (k0_off1_inb L 5)).view.loc (V d (cV L) (jV L)) ↦[(eCh L 160#32 (k0_off1_inb L 5)).view.set]{fullShare} f : sProp 𝕄)
      = eLoc d ↦[eSetN (blkOf L 5)]{fullShare} f := pts_eCh d L 5 f
theorem pts_eCh6 (f : Buf (Elt F) (eLoc d)) :
    ((eCh L 192#32 (k0_off1_inb L 6)).view.loc (V d (cV L) (jV L)) ↦[(eCh L 192#32 (k0_off1_inb L 6)).view.set]{fullShare} f : sProp 𝕄)
      = eLoc d ↦[eSetN (blkOf L 6)]{fullShare} f := pts_eCh d L 6 f
theorem pts_eCh7 (f : Buf (Elt F) (eLoc d)) :
    ((eCh L 224#32 (k0_off1_inb L 7)).view.loc (V d (cV L) (jV L)) ↦[(eCh L 224#32 (k0_off1_inb L 7)).view.set]{fullShare} f : sProp 𝕄)
      = eLoc d ↦[eSetN (blkOf L 7)]{fullShare} f := pts_eCh d L 7 f
theorem pts_oCh0 (f : Buf (Elt F) (oLoc d)) :
    ((oCh L 0#32 (k0_off4_inb L 0)).view.loc (V d (cV L) (jV L)) ↦[(oCh L 0#32 (k0_off4_inb L 0)).view.set]{fullShare} f : sProp 𝕄)
      = oLoc d ↦[oSetN (blkOf L 0)]{fullShare} f := pts_oCh d L 0 f
theorem pts_oCh1 (f : Buf (Elt F) (oLoc d)) :
    ((oCh L 32#32 (k0_off4_inb L 1)).view.loc (V d (cV L) (jV L)) ↦[(oCh L 32#32 (k0_off4_inb L 1)).view.set]{fullShare} f : sProp 𝕄)
      = oLoc d ↦[oSetN (blkOf L 1)]{fullShare} f := pts_oCh d L 1 f
theorem pts_oCh2 (f : Buf (Elt F) (oLoc d)) :
    ((oCh L 64#32 (k0_off4_inb L 2)).view.loc (V d (cV L) (jV L)) ↦[(oCh L 64#32 (k0_off4_inb L 2)).view.set]{fullShare} f : sProp 𝕄)
      = oLoc d ↦[oSetN (blkOf L 2)]{fullShare} f := pts_oCh d L 2 f
theorem pts_oCh3 (f : Buf (Elt F) (oLoc d)) :
    ((oCh L 96#32 (k0_off4_inb L 3)).view.loc (V d (cV L) (jV L)) ↦[(oCh L 96#32 (k0_off4_inb L 3)).view.set]{fullShare} f : sProp 𝕄)
      = oLoc d ↦[oSetN (blkOf L 3)]{fullShare} f := pts_oCh d L 3 f
theorem pts_oCh4 (f : Buf (Elt F) (oLoc d)) :
    ((oCh L 128#32 (k0_off4_inb L 4)).view.loc (V d (cV L) (jV L)) ↦[(oCh L 128#32 (k0_off4_inb L 4)).view.set]{fullShare} f : sProp 𝕄)
      = oLoc d ↦[oSetN (blkOf L 4)]{fullShare} f := pts_oCh d L 4 f
theorem pts_oCh5 (f : Buf (Elt F) (oLoc d)) :
    ((oCh L 160#32 (k0_off4_inb L 5)).view.loc (V d (cV L) (jV L)) ↦[(oCh L 160#32 (k0_off4_inb L 5)).view.set]{fullShare} f : sProp 𝕄)
      = oLoc d ↦[oSetN (blkOf L 5)]{fullShare} f := pts_oCh d L 5 f
theorem pts_oCh6 (f : Buf (Elt F) (oLoc d)) :
    ((oCh L 192#32 (k0_off4_inb L 6)).view.loc (V d (cV L) (jV L)) ↦[(oCh L 192#32 (k0_off4_inb L 6)).view.set]{fullShare} f : sProp 𝕄)
      = oLoc d ↦[oSetN (blkOf L 6)]{fullShare} f := pts_oCh d L 6 f
theorem pts_oCh7 (f : Buf (Elt F) (oLoc d)) :
    ((oCh L 224#32 (k0_off4_inb L 7)).view.loc (V d (cV L) (jV L)) ↦[(oCh L 224#32 (k0_off4_inb L 7)).view.set]{fullShare} f : sProp 𝕄)
      = oLoc d ↦[oSetN (blkOf L 7)]{fullShare} f := pts_oCh d L 7 f
theorem done_oCh0 (fe : Buf (Elt F) (eLoc d)) (fo : Buf (Elt F) (oLoc d)) (P : S32x1024.Idx → Elt F .f32)
    (hP : P = (eCh L 0#32 (k0_off1_inb L 0)).view.read (Elt F) fe) :
    ((oCh L 0#32 (k0_off4_inb L 0)).view.loc (V d (cV L) (jV L)) ↦[(oCh L 0#32 (k0_off4_inb L 0)).view.set]{fullShare}
        (oCh L 0#32 (k0_off4_inb L 0)).view.writes (Elt F) fo [⟨Rect.whole S32x1024, P⟩] : sProp 𝕄)
      = oLoc d ↦[oSetN (blkOf L 0)]{fullShare} Cert.Spec.lift fe := done_oCh d L 0 fe fo P hP
theorem done_oCh1 (fe : Buf (Elt F) (eLoc d)) (fo : Buf (Elt F) (oLoc d)) (P : S32x1024.Idx → Elt F .f32)
    (hP : P = (eCh L 32#32 (k0_off1_inb L 1)).view.read (Elt F) fe) :
    ((oCh L 32#32 (k0_off4_inb L 1)).view.loc (V d (cV L) (jV L)) ↦[(oCh L 32#32 (k0_off4_inb L 1)).view.set]{fullShare}
        (oCh L 32#32 (k0_off4_inb L 1)).view.writes (Elt F) fo [⟨Rect.whole S32x1024, P⟩] : sProp 𝕄)
      = oLoc d ↦[oSetN (blkOf L 1)]{fullShare} Cert.Spec.lift fe := done_oCh d L 1 fe fo P hP
theorem done_oCh2 (fe : Buf (Elt F) (eLoc d)) (fo : Buf (Elt F) (oLoc d)) (P : S32x1024.Idx → Elt F .f32)
    (hP : P = (eCh L 64#32 (k0_off1_inb L 2)).view.read (Elt F) fe) :
    ((oCh L 64#32 (k0_off4_inb L 2)).view.loc (V d (cV L) (jV L)) ↦[(oCh L 64#32 (k0_off4_inb L 2)).view.set]{fullShare}
        (oCh L 64#32 (k0_off4_inb L 2)).view.writes (Elt F) fo [⟨Rect.whole S32x1024, P⟩] : sProp 𝕄)
      = oLoc d ↦[oSetN (blkOf L 2)]{fullShare} Cert.Spec.lift fe := done_oCh d L 2 fe fo P hP
theorem done_oCh3 (fe : Buf (Elt F) (eLoc d)) (fo : Buf (Elt F) (oLoc d)) (P : S32x1024.Idx → Elt F .f32)
    (hP : P = (eCh L 96#32 (k0_off1_inb L 3)).view.read (Elt F) fe) :
    ((oCh L 96#32 (k0_off4_inb L 3)).view.loc (V d (cV L) (jV L)) ↦[(oCh L 96#32 (k0_off4_inb L 3)).view.set]{fullShare}
        (oCh L 96#32 (k0_off4_inb L 3)).view.writes (Elt F) fo [⟨Rect.whole S32x1024, P⟩] : sProp 𝕄)
      = oLoc d ↦[oSetN (blkOf L 3)]{fullShare} Cert.Spec.lift fe := done_oCh d L 3 fe fo P hP
theorem done_oCh4 (fe : Buf (Elt F) (eLoc d)) (fo : Buf (Elt F) (oLoc d)) (P : S32x1024.Idx → Elt F .f32)
    (hP : P = (eCh L 128#32 (k0_off1_inb L 4)).view.read (Elt F) fe) :
    ((oCh L 128#32 (k0_off4_inb L 4)).view.loc (V d (cV L) (jV L)) ↦[(oCh L 128#32 (k0_off4_inb L 4)).view.set]{fullShare}
        (oCh L 128#32 (k0_off4_inb L 4)).view.writes (Elt F) fo [⟨Rect.whole S32x1024, P⟩] : sProp 𝕄)
      = oLoc d ↦[oSetN (blkOf L 4)]{fullShare} Cert.Spec.lift fe := done_oCh d L 4 fe fo P hP
theorem done_oCh5 (fe : Buf (Elt F) (eLoc d)) (fo : Buf (Elt F) (oLoc d)) (P : S32x1024.Idx → Elt F .f32)
    (hP : P = (eCh L 160#32 (k0_off1_inb L 5)).view.read (Elt F) fe) :
    ((oCh L 160#32 (k0_off4_inb L 5)).view.loc (V d (cV L) (jV L)) ↦[(oCh L 160#32 (k0_off4_inb L 5)).view.set]{fullShare}
        (oCh L 160#32 (k0_off4_inb L 5)).view.writes (Elt F) fo [⟨Rect.whole S32x1024, P⟩] : sProp 𝕄)
      = oLoc d ↦[oSetN (blkOf L 5)]{fullShare} Cert.Spec.lift fe := done_oCh d L 5 fe fo P hP
theorem done_oCh6 (fe : Buf (Elt F) (eLoc d)) (fo : Buf (Elt F) (oLoc d)) (P : S32x1024.Idx → Elt F .f32)
    (hP : P = (eCh L 192#32 (k0_off1_inb L 6)).view.read (Elt F) fe) :
    ((oCh L 192#32 (k0_off4_inb L 6)).view.loc (V d (cV L) (jV L)) ↦[(oCh L 192#32 (k0_off4_inb L 6)).view.set]{fullShare}
        (oCh L 192#32 (k0_off4_inb L 6)).view.writes (Elt F) fo [⟨Rect.whole S32x1024, P⟩] : sProp 𝕄)
      = oLoc d ↦[oSetN (blkOf L 6)]{fullShare} Cert.Spec.lift fe := done_oCh d L 6 fe fo P hP
theorem done_oCh7 (fe : Buf (Elt F) (eLoc d)) (fo : Buf (Elt F) (oLoc d)) (P : S32x1024.Idx → Elt F .f32)
    (hP : P = (eCh L 224#32 (k0_off1_inb L 7)).view.read (Elt F) fe) :
    ((oCh L 224#32 (k0_off4_inb L 7)).view.loc (V d (cV L) (jV L)) ↦[(oCh L 224#32 (k0_off4_inb L 7)).view.set]{fullShare}
        (oCh L 224#32 (k0_off4_inb L 7)).view.writes (Elt F) fo [⟨Rect.whole S32x1024, P⟩] : sProp 𝕄)
      = oLoc d ↦[oSetN (blkOf L 7)]{fullShare} Cert.Spec.lift fe := done_oCh d L 7 fe fo P hP

end Tile

end Cert.Proof.Bits

end
-- ==== Proof.BitsBody.lean ====
/-
  The task's run.  Its eight chunks go table → buffer → result; the even ones through the halves of the subcore's own
  vector memory, the odd ones through its slots of the shared memory; slot `j` serves chunks `2j`, `2j + 1`, `2j + 4`, `2j + 5`
  in turn, each copy out waited for before the next copy in.  At the end every chunk of the result holds the table's
  rows of the same numbers and everything the task was lent is back in its hand.
-/
import proofs.«210063_g2302102470798_cont_8to1_71_18_alg».proof.Proof.BitsPieces

noncomputable section

namespace Cert.Proof.Bits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.LibWholePiece

variable {F : FTy → Type}

local notation "𝕄" => MT nD τ sig (HIx 1) (Elt F) ℕ UU ℕ

variable (m : (ℓ : Loc nD τ sig) → Buf (Elt F) ℓ)

/-! ## What a task is handed, and what it hands back -/

/-- Chunk `k` of subcore `s` of SparseCore `c` before the task: the table's block and the result's, as launched. -/
abbrev inCh (d : Dev nD) (c s k : ℕ) : sProp 𝕄 :=
  iprop((eLoc d ↦[eSetN (16 * s + 8 * c + k)]{fullShare} m (eLoc d)) ∗ oLoc d ↦[oSetN (16 * s + 8 * c + k)]{fullShare} m (oLoc d))
/-- The same after it: the result's block holds the table's rows. -/
abbrev outCh (d : Dev nD) (c s k : ℕ) : sProp 𝕄 :=
  iprop((eLoc d ↦[eSetN (16 * s + 8 * c + k)]{fullShare} m (eLoc d)) ∗ oLoc d ↦[oSetN (16 * s + 8 * c + k)]{fullShare} Cert.Spec.lift (m (eLoc d)))
/-- Subcore `s`'s two slots of SparseCore `c`'s shared memory, at whatever they hold. -/
abbrev shSlots (d : Dev nD) (c : Fin τ.nSC) (s : ℕ) : sProp 𝕄 :=
  iprop((∃ f, shLoc d c ↦[shSetN s 0]{fullShare} f) ∗ ∃ f, shLoc d c ↦[shSetN s 1]{fullShare} f)

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

section Tile

variable (d : Dev nD) (L : grid0.Coords)

/-- A vector subcore's scoped semaphores at zero: its eight transfer semaphores, and the rest. -/
theorem ownSems0_V :
    (ownSems0 (V d (cV L) (jV L)) : sProp 𝕄)
      = iprop(semVal (V d (cV L) (jV L), SemLoc.dma (0 : DmaSem sig)) 0
          ∗ semVal (V d (cV L) (jV L), SemLoc.dma (1 : DmaSem sig)) 0
          ∗ semVal (V d (cV L) (jV L), SemLoc.dma (2 : DmaSem sig)) 0
          ∗ semVal (V d (cV L) (jV L), SemLoc.dma (3 : DmaSem sig)) 0
          ∗ semVal (V d (cV L) (jV L), SemLoc.dma (4 : DmaSem sig)) 0
          ∗ semVal (V d (cV L) (jV L), SemLoc.dma (5 : DmaSem sig)) 0
          ∗ semVal (V d (cV L) (jV L), SemLoc.dma (6 : DmaSem sig)) 0
          ∗ semVal (V d (cV L) (jV L), SemLoc.dma (7 : DmaSem sig)) 0
          ∗ bigSep (((((((((ownCells (V d (cV L) (jV L))).erase (V d (cV L) (jV L), SemLoc.dma (0 : DmaSem sig))).erase (V d (cV L) (jV L), SemLoc.dma (1 : DmaSem sig))).erase (V d (cV L) (jV L), SemLoc.dma (2 : DmaSem sig))).erase (V d (cV L) (jV L), SemLoc.dma (3 : DmaSem sig))).erase (V d (cV L) (jV L), SemLoc.dma (4 : DmaSem sig))).erase (V d (cV L) (jV L), SemLoc.dma (5 : DmaSem sig))).erase (V d (cV L) (jV L), SemLoc.dma (6 : DmaSem sig))).erase (V d (cV L) (jV L), SemLoc.dma (7 : DmaSem sig))) fun g => semVal g 0) := by
  unfold SparseCore.Cfg.ownSems0
  rw [SparseCore.bigSep_erase' ((mem_ownCells (g := (V d (cV L) (jV L), SemLoc.dma (0 : DmaSem sig)))).mpr ⟨rfl, by show (SemLoc.dma (0 : DmaSem sig) : SemLoc sig).isScoped .scVector = true; decide⟩),
    SparseCore.bigSep_erase' (Finset.mem_erase.mpr ⟨(fun e => absurd (SemLoc.dma.inj (Prod.mk.inj e).2) (by decide) : ((V d (cV L) (jV L), SemLoc.dma (1 : DmaSem sig)) : GSem nD τ sig) ≠ (V d (cV L) (jV L), SemLoc.dma (0 : DmaSem sig))), ((mem_ownCells (g := (V d (cV L) (jV L), SemLoc.dma (1 : DmaSem sig)))).mpr ⟨rfl, by show (SemLoc.dma (1 : DmaSem sig) : SemLoc sig).isScoped .scVector = true; decide⟩)⟩),
    SparseCore.bigSep_erase' (Finset.mem_erase.mpr ⟨(fun e => absurd (SemLoc.dma.inj (Prod.mk.inj e).2) (by decide) : ((V d (cV L) (jV L), SemLoc.dma (2 : DmaSem sig)) : GSem nD τ sig) ≠ (V d (cV L) (jV L), SemLoc.dma (1 : DmaSem sig))), (Finset.mem_erase.mpr ⟨(fun e => absurd (SemLoc.dma.inj (Prod.mk.inj e).2) (by decide) : ((V d (cV L) (jV L), SemLoc.dma (2 : DmaSem sig)) : GSem nD τ sig) ≠ (V d (cV L) (jV L), SemLoc.dma (0 : DmaSem sig))), ((mem_ownCells (g := (V d (cV L) (jV L), SemLoc.dma (2 : DmaSem sig)))).mpr ⟨rfl, by show (SemLoc.dma (2 : DmaSem sig) : SemLoc sig).isScoped .scVector = true; decide⟩)⟩)⟩),
    SparseCore.bigSep_erase' (Finset.mem_erase.mpr ⟨(fun e => absurd (SemLoc.dma.inj (Prod.mk.inj e).2) (by decide) : ((V d (cV L) (jV L), SemLoc.dma (3 : DmaSem sig)) : GSem nD τ sig) ≠ (V d (cV L) (jV L), SemLoc.dma (2 : DmaSem sig))), (Finset.mem_erase.mpr ⟨(fun e => absurd (SemLoc.dma.inj (Prod.mk.inj e).2) (by decide) : ((V d (cV L) (jV L), SemLoc.dma (3 : DmaSem sig)) : GSem nD τ sig) ≠ (V d (cV L) (jV L), SemLoc.dma (1 : DmaSem sig))), (Finset.mem_erase.mpr ⟨(fun e => absurd (SemLoc.dma.inj (Prod.mk.inj e).2) (by decide) : ((V d (cV L) (jV L), SemLoc.dma (3 : DmaSem sig)) : GSem nD τ sig) ≠ (V d (cV L) (jV L), SemLoc.dma (0 : DmaSem sig))), ((mem_ownCells (g := (V d (cV L) (jV L), SemLoc.dma (3 : DmaSem sig)))).mpr ⟨rfl, by show (SemLoc.dma (3 : DmaSem sig) : SemLoc sig).isScoped .scVector = true; decide⟩)⟩)⟩)⟩),
    SparseCore.bigSep_erase' (Finset.mem_erase.mpr ⟨(fun e => absurd (SemLoc.dma.inj (Prod.mk.inj e).2) (by decide) : ((V d (cV L) (jV L), SemLoc.dma (4 : DmaSem sig)) : GSem nD τ sig) ≠ (V d (cV L) (jV L), SemLoc.dma (3 : DmaSem sig))), (Finset.mem_erase.mpr ⟨(fun e => absurd (SemLoc.dma.inj (Prod.mk.inj e).2) (by decide) : ((V d (cV L) (jV L), SemLoc.dma (4 : DmaSem sig)) : GSem nD τ sig) ≠ (V d (cV L) (jV L), SemLoc.dma (2 : DmaSem sig))), (Finset.mem_erase.mpr ⟨(fun e => absurd (SemLoc.dma.inj (Prod.mk.inj e).2) (by decide) : ((V d (cV L) (jV L), SemLoc.dma (4 : DmaSem sig)) : GSem nD τ sig) ≠ (V d (cV L) (jV L), SemLoc.dma (1 : DmaSem sig))), (Finset.mem_erase.mpr ⟨(fun e => absurd (SemLoc.dma.inj (Prod.mk.inj e).2) (by decide) : ((V d (cV L) (jV L), SemLoc.dma (4 : DmaSem sig)) : GSem nD τ sig) ≠ (V d (cV L) (jV L), SemLoc.dma (0 : DmaSem sig))), ((mem_ownCells (g := (V d (cV L) (jV L), SemLoc.dma (4 : DmaSem sig)))).mpr ⟨rfl, by show (SemLoc.dma (4 : DmaSem sig) : SemLoc sig).isScoped .scVector = true; decide⟩)⟩)⟩)⟩)⟩),
    SparseCore.bigSep_erase' (Finset.mem_erase.mpr ⟨(fun e => absurd (SemLoc.dma.inj (Prod.mk.inj e).2) (by decide) : ((V d (cV L) (jV L), SemLoc.dma (5 : DmaSem sig)) : GSem nD τ sig) ≠ (V d (cV L) (jV L), SemLoc.dma (4 : DmaSem sig))), (Finset.mem_erase.mpr ⟨(fun e => absurd (SemLoc.dma.inj (Prod.mk.inj e).2) (by decide) : ((V d (cV L) (jV L), SemLoc.dma (5 : DmaSem sig)) : GSem nD τ sig) ≠ (V d (cV L) (jV L), SemLoc.dma (3 : DmaSem sig))), (Finset.mem_erase.mpr ⟨(fun e => absurd (SemLoc.dma.inj (Prod.mk.inj e).2) (by decide) : ((V d (cV L) (jV L), SemLoc.dma (5 : DmaSem sig)) : GSem nD τ sig) ≠ (V d (cV L) (jV L), SemLoc.dma (2 : DmaSem sig))), (Finset.mem_erase.mpr ⟨(fun e => absurd (SemLoc.dma.inj (Prod.mk.inj e).2) (by decide) : ((V d (cV L) (jV L), SemLoc.dma (5 : DmaSem sig)) : GSem nD τ sig) ≠ (V d (cV L) (jV L), SemLoc.dma (1 : DmaSem sig))), (Finset.mem_erase.mpr ⟨(fun e => absurd (SemLoc.dma.inj (Prod.mk.inj e).2) (by decide) : ((V d (cV L) (jV L), SemLoc.dma (5 : DmaSem sig)) : GSem nD τ sig) ≠ (V d (cV L) (jV L), SemLoc.dma (0 : DmaSem sig))), ((mem_ownCells (g := (V d (cV L) (jV L), SemLoc.dma (5 : DmaSem sig)))).mpr ⟨rfl, by show (SemLoc.dma (5 : DmaSem sig) : SemLoc sig).isScoped .scVector = true; decide⟩)⟩)⟩)⟩)⟩)⟩),
    SparseCore.bigSep_erase' (Finset.mem_erase.mpr ⟨(fun e => absurd (SemLoc.dma.inj (Prod.mk.inj e).2) (by decide) : ((V d (cV L) (jV L), SemLoc.dma (6 : DmaSem sig)) : GSem nD τ sig) ≠ (V d (cV L) (jV L), SemLoc.dma (5 : DmaSem sig))), (Finset.mem_erase.mpr ⟨(fun e => absurd (SemLoc.dma.inj (Prod.mk.inj e).2) (by decide) : ((V d (cV L) (jV L), SemLoc.dma (6 : DmaSem sig)) : GSem nD τ sig) ≠ (V d (cV L) (jV L), SemLoc.dma (4 : DmaSem sig))), (Finset.mem_erase.mpr ⟨(fun e => absurd (SemLoc.dma.inj (Prod.mk.inj e).2) (by decide) : ((V d (cV L) (jV L), SemLoc.dma (6 : DmaSem sig)) : GSem nD τ sig) ≠ (V d (cV L) (jV L), SemLoc.dma (3 : DmaSem sig))), (Finset.mem_erase.mpr ⟨(fun e => absurd (SemLoc.dma.inj (Prod.mk.inj e).2) (by decide) : ((V d (cV L) (jV L), SemLoc.dma (6 : DmaSem sig)) : GSem nD τ sig) ≠ (V d (cV L) (jV L), SemLoc.dma (2 : DmaSem sig))), (Finset.mem_erase.mpr ⟨(fun e => absurd (SemLoc.dma.inj (Prod.mk.inj e).2) (by decide) : ((V d (cV L) (jV L), SemLoc.dma (6 : DmaSem sig)) : GSem nD τ sig) ≠ (V d (cV L) (jV L), SemLoc.dma (1 : DmaSem sig))), (Finset.mem_erase.mpr ⟨(fun e => absurd (SemLoc.dma.inj (Prod.mk.inj e).2) (by decide) : ((V d (cV L) (jV L), SemLoc.dma (6 : DmaSem sig)) : GSem nD τ sig) ≠ (V d (cV L) (jV L), SemLoc.dma (0 : DmaSem sig))), ((mem_ownCells (g := (V d (cV L) (jV L), SemLoc.dma (6 : DmaSem sig)))).mpr ⟨rfl, by show (SemLoc.dma (6 : DmaSem sig) : SemLoc sig).isScoped .scVector = true; decide⟩)⟩)⟩)⟩)⟩)⟩)⟩),
    SparseCore.bigSep_erase' (Finset.mem_erase.mpr ⟨(fun e => absurd (SemLoc.dma.inj (Prod.mk.inj e).2) (by decide) : ((V d (cV L) (jV L), SemLoc.dma (7 : DmaSem sig)) : GSem nD τ sig) ≠ (V d (cV L) (jV L), SemLoc.dma (6 : DmaSem sig))), (Finset.mem_erase.mpr ⟨(fun e => absurd (SemLoc.dma.inj (Prod.mk.inj e).2) (by decide) : ((V d (cV L) (jV L), SemLoc.dma (7 : DmaSem sig)) : GSem nD τ sig) ≠ (V d (cV L) (jV L), SemLoc.dma (5 : DmaSem sig))), (Finset.mem_erase.mpr ⟨(fun e => absurd (SemLoc.dma.inj (Prod.mk.inj e).2) (by decide) : ((V d (cV L) (jV L), SemLoc.dma (7 : DmaSem sig)) : GSem nD τ sig) ≠ (V d (cV L) (jV L), SemLoc.dma (4 : DmaSem sig))), (Finset.mem_erase.mpr ⟨(fun e => absurd (SemLoc.dma.inj (Prod.mk.inj e).2) (by decide) : ((V d (cV L) (jV L), SemLoc.dma (7 : DmaSem sig)) : GSem nD τ sig) ≠ (V d (cV L) (jV L), SemLoc.dma (3 : DmaSem sig))), (Finset.mem_erase.mpr ⟨(fun e => absurd (SemLoc.dma.inj (Prod.mk.inj e).2) (by decide) : ((V d (cV L) (jV L), SemLoc.dma (7 : DmaSem sig)) : GSem nD τ sig) ≠ (V d (cV L) (jV L), SemLoc.dma (2 : DmaSem sig))), (Finset.mem_erase.mpr ⟨(fun e => absurd (SemLoc.dma.inj (Prod.mk.inj e).2) (by decide) : ((V d (cV L) (jV L), SemLoc.dma (7 : DmaSem sig)) : GSem nD τ sig) ≠ (V d (cV L) (jV L), SemLoc.dma (1 : DmaSem sig))), (Finset.mem_erase.mpr ⟨(fun e => absurd (SemLoc.dma.inj (Prod.mk.inj e).2) (by decide) : ((V d (cV L) (jV L), SemLoc.dma (7 : DmaSem sig)) : GSem nD τ sig) ≠ (V d (cV L) (jV L), SemLoc.dma (0 : DmaSem sig))), ((mem_ownCells (g := (V d (cV L) (jV L), SemLoc.dma (7 : DmaSem sig)))).mpr ⟨rfl, by show (SemLoc.dma (7 : DmaSem sig) : SemLoc sig).isScoped .scVector = true; decide⟩)⟩)⟩)⟩)⟩)⟩)⟩)⟩)]

/-- Its vector memory is among its own buffers: it is it, at some contents, and the rest. -/
theorem ownBufs_V :
    (ownBufs (V d (cV L) (jV L)) : sProp 𝕄)
      = iprop((∃ f, tLoc d L ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L)) (b := (Proc.scVector (cV L) (jV L)).devRef cc0_scratch0) rfl)

variable [FloatOps F]

/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp
        ∗ ((bigSep Finset.univ fun k : Fin 8 => inCh m d (L 0).val (L 1).val k.val) ∗ shSlots d (cV L) (L 1).val)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_copy L eV (Memref.isWhole_whole _) oV (Memref.isWhole_whole _) tV (Memref.isWhole_whole _) sV (Memref.isWhole_whole _)
            cc0_scratch2 cc0_scratch3 cc0_scratch4 cc0_scratch5)
          fun _ => iprop(((bigSep Finset.univ fun k : Fin 8 => outCh m d (L 0).val (L 1).val k.val) ∗ shSlots d (cV L) (L 1).val)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_sc_copy_eq_skeleton]; unfold cc0_sc_copy_skel
  rw [(K (F := F)).scopedBufs_V hF d (cV L) (jV L), SparseCore.Cfg.scopedSems0_V (Val := Elt F) d (cV L) (jV L), ownSems0_V, ownBufs_V]
  rw [bigSep_fin8, bigSep_fin8]
  iintro ⟨#Hlv, -, ⟨⟨⟨He0, Ho0⟩, ⟨He1, Ho1⟩, ⟨He2, Ho2⟩, ⟨He3, Ho3⟩, ⟨He4, Ho4⟩, ⟨He5, Ho5⟩, ⟨He6, Ho6⟩, ⟨He7, Ho7⟩⟩, ⟨%fs0, Hs0⟩, ⟨%fs1, Hs1⟩⟩, ⟨⟨%ft, Ht⟩, Hbufs⟩, ⟨Hc0, Hc1, Hc2, Hc3, Hc4, Hc5, Hc6, Hc7, Hsems⟩, HO⟩
  ihave Hmw := ((K (F := F)).mayWaits_none (thr := V d (cV L) (jV L)) hO) $$ Hlv
  ihave He0' := (Entails.of_eq (pts_eCh0 (F := F) d L _).symm) $$ He0
  ihave Ho0' := (Entails.of_eq (pts_oCh0 (F := F) d L _).symm) $$ Ho0
  ihave He1' := (Entails.of_eq (pts_eCh1 (F := F) d L _).symm) $$ He1
  ihave Ho1' := (Entails.of_eq (pts_oCh1 (F := F) d L _).symm) $$ Ho1
  ihave He2' := (Entails.of_eq (pts_eCh2 (F := F) d L _).symm) $$ He2
  ihave Ho2' := (Entails.of_eq (pts_oCh2 (F := F) d L _).symm) $$ Ho2
  ihave He3' := (Entails.of_eq (pts_eCh3 (F := F) d L _).symm) $$ He3
  ihave Ho3' := (Entails.of_eq (pts_oCh3 (F := F) d L _).symm) $$ Ho3
  ihave He4' := (Entails.of_eq (pts_eCh4 (F := F) d L _).symm) $$ He4
  ihave Ho4' := (Entails.of_eq (pts_oCh4 (F := F) d L _).symm) $$ Ho4
  ihave He5' := (Entails.of_eq (pts_eCh5 (F := F) d L _).symm) $$ He5
  ihave Ho5' := (Entails.of_eq (pts_oCh5 (F := F) d L _).symm) $$ Ho5
  ihave He6' := (Entails.of_eq (pts_eCh6 (F := F) d L _).symm) $$ He6
  ihave Ho6' := (Entails.of_eq (pts_oCh6 (F := F) d L _).symm) $$ Ho6
  ihave He7' := (Entails.of_eq (pts_eCh7 (F := F) d L _).symm) $$ He7
  ihave Ho7' := (Entails.of_eq (pts_oCh7 (F := F) d L _).symm) $$ Ho7
  ihave Ht' := (Entails.of_eq (tPts_halves (F := F) d L ft)) $$ Ht
  icases Ht' with ⟨Ht0, Ht1⟩
  ihave Ht0' := (Entails.of_eq (pts_tSl0 (F := F) d L _).symm) $$ Ht0
  ihave Ht1' := (Entails.of_eq (pts_tSl1 (F := F) d L _).symm) $$ Ht1
  ihave Hs0' := (Entails.of_eq (pts_sSl0 (F := F) d L _).symm) $$ Hs0
  ihave Hs1' := (Entails.of_eq (pts_sSl1 (F := F) d L _).symm) $$ Hs1
  sl_exec
  sl_step
  have hP0 : tile_body.sl.dma0_4 m d L ft = (eCh L 0#32 (k0_off1_inb L 0)).view.read (Elt F) (m (eLoc d)) := by
    delta tile_body.sl.dma0_4 tile_body.sl.dma0; exact read_writes_whole_cons _ _ _ _
  have hP1 : tile_body.sl.dma0_5 m d L fs0 = (eCh L 32#32 (k0_off1_inb L 1)).view.read (Elt F) (m (eLoc d)) := by
    delta tile_body.sl.dma0_5 tile_body.sl.dma0_1; exact read_writes_whole_cons _ _ _ _
  have hP2 : tile_body.sl.dma0_8 m d L ft = (eCh L 64#32 (k0_off1_inb L 2)).view.read (Elt F) (m (eLoc d)) := by
    delta tile_body.sl.dma0_8 tile_body.sl.dma0_2; exact read_writes_whole_cons _ _ _ _
  have hP3 : tile_body.sl.dma0_9 m d L fs1 = (eCh L 96#32 (k0_off1_inb L 3)).view.read (Elt F) (m (eLoc d)) := by
    delta tile_body.sl.dma0_9 tile_body.sl.dma0_3; exact read_writes_whole_cons _ _ _ _
  have hP4 : tile_body.sl.dma0_12 m d L ft = (eCh L 128#32 (k0_off1_inb L 4)).view.read (Elt F) (m (eLoc d)) := by
    delta tile_body.sl.dma0_12 tile_body.sl.dma0_6; exact read_writes_whole_cons _ _ _ _
  have hP5 : tile_body.sl.dma0_13 m d L fs0 = (eCh L 160#32 (k0_off1_inb L 5)).view.read (Elt F) (m (eLoc d)) := by
    delta tile_body.sl.dma0_13 tile_body.sl.dma0_7; exact read_writes_whole_cons _ _ _ _
  have hP6 : tile_body.sl.dma0_14 m d L ft = (eCh L 192#32 (k0_off1_inb L 6)).view.read (Elt F) (m (eLoc d)) := by
    delta tile_body.sl.dma0_14 tile_body.sl.dma0_10; exact read_writes_whole_cons _ _ _ _
  have hP7 : tile_body.sl.dma0_15 m d L fs1 = (eCh L 224#32 (k0_off1_inb L 7)).view.read (Elt F) (m (eLoc d)) := by
    delta tile_body.sl.dma0_15 tile_body.sl.dma0_11; exact read_writes_whole_cons _ _ _ _
  isplitl [He0' Ho0' He1' Ho1' He2' Ho2' He3' Ho3' He4' Ho4' He5' Ho5' He6' Ho6' He7' Ho7' Hs0' Hs1']
  · isplitl [He0' Ho0' He1' Ho1' He2' Ho2' He3' Ho3' He4' Ho4' He5' Ho5' He6' Ho6' He7' Ho7']
    · isplitl [He0' Ho0']
      · isplitl [He0']
        · iapply (Entails.of_eq (pts_eCh0 (F := F) d L _)); iexact He0'
        · iapply (Entails.of_eq (done_oCh0 (F := F) d L _ _ _ hP0)); iexact Ho0'
      isplitl [He1' Ho1']
      · isplitl [He1']
        · iapply (Entails.of_eq (pts_eCh1 (F := F) d L _)); iexact He1'
        · iapply (Entails.of_eq (done_oCh1 (F := F) d L _ _ _ hP1)); iexact Ho1'
      isplitl [He2' Ho2']
      · isplitl [He2']
        · iapply (Entails.of_eq (pts_eCh2 (F := F) d L _)); iexact He2'
        · iapply (Entails.of_eq (done_oCh2 (F := F) d L _ _ _ hP2)); iexact Ho2'
      isplitl [He3' Ho3']
      · isplitl [He3']
        · iapply (Entails.of_eq (pts_eCh3 (F := F) d L _)); iexact He3'
        · iapply (Entails.of_eq (done_oCh3 (F := F) d L _ _ _ hP3)); iexact Ho3'
      isplitl [He4' Ho4']
      · isplitl [He4']
        · iapply (Entails.of_eq (pts_eCh4 (F := F) d L _)); iexact He4'
        · iapply (Entails.of_eq (done_oCh4 (F := F) d L _ _ _ hP4)); iexact Ho4'
      isplitl [He5' Ho5']
      · isplitl [He5']
        · iapply (Entails.of_eq (pts_eCh5 (F := F) d L _)); iexact He5'
        · iapply (Entails.of_eq (done_oCh5 (F := F) d L _ _ _ hP5)); iexact Ho5'
      isplitl [He6' Ho6']
      · isplitl [He6']
        · iapply (Entails.of_eq (pts_eCh6 (F := F) d L _)); iexact He6'
        · iapply (Entails.of_eq (done_oCh6 (F := F) d L _ _ _ hP6)); iexact Ho6'
      isplitl [He7']
      · iapply (Entails.of_eq (pts_eCh7 (F := F) d L _)); iexact He7'
      · iapply (Entails.of_eq (done_oCh7 (F := F) d L _ _ _ hP7)); iexact Ho7'
    · isplitl [Hs0']
      · iexists _; iapply (Entails.of_eq (pts_sSl0 (F := F) d L _)); iexact Hs0'
      · iexists _; iapply (Entails.of_eq (pts_sSl1 (F := F) d L _)); iexact Hs1'
  isplitl [Ht0' Ht1' Hbufs]
  · isplitl [Ht0' Ht1']
    · iapply (tHalves_join (F := F) d L)
      isplitl [Ht0']
      · iexists _; iapply (Entails.of_eq (pts_tSl0 (F := F) d L _)); iexact Ht0'
      · iexists _; iapply (Entails.of_eq (pts_tSl1 (F := F) d L _)); iexact Ht1'
    · iexact Hbufs
  isplitl [Hc0 Hc1 Hc2 Hc3 Hc4 Hc5 Hc6 Hc7 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Bits

end
-- ==== Proof.BitsLaunch.lean ====
/-
  The launch: every thread of the device at once.  The TensorCore hands each SparseCore its half of the blocks of the
  table and of the result; the SparseCore's sequencer deals each of its sixteen subcores its eight chunks and its two
  slots of the shared memory, and collects them again; the TensorCore gets the blocks back, every block of the result
  now holding the table's rows.  Nothing here depends on the order in which the thirty-two tasks run: their pieces
  are pairwise disjoint.
-/
import proofs.«210063_g2302102470798_cont_8to1_71_18_alg».proof.Proof.BitsBody

noncomputable section

namespace Cert.Proof.Bits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- The call hands SparseCore `c` its blocks of the table and of the result and takes them back, the result's now the
    table's rows; the sequencer hands subcore `i` its eight chunks and its two slots of the shared memory. -/
def P : (K (F := F)).Pay (nD := nD) (Val := Elt F) (Name := ℕ) (U := UU) where
  st := fun _ d c => bigSep Finset.univ fun s : Fin 16 => bigSep Finset.univ fun k : Fin 8 => inCh m d c.val s.val k.val
  dn := fun _ d c => bigSep Finset.univ fun s : Fin 16 => bigSep Finset.univ fun k : Fin 8 => outCh m d c.val s.val k.val
  go := fun q d c i => iprop((bigSep Finset.univ fun k : Fin 8 => inCh m d c.val i.val k.val) ∗ shSlots d ((K (F := F)).core q c) i.val)
  td := fun q d c i => iprop((bigSep Finset.univ fun k : Fin 8 => outCh m d c.val i.val k.val) ∗ shSlots d ((K (F := F)).core q c) i.val)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligations -/

section Obl

variable [FloatOps F]

theorem defs₀_vector (c : Fin τ.nSC) (s : Fin τ.nSub) :
    defs₀ (F := F) (.scVector c s) 0 ()
      = SparseCore.onTile hcore0 hsub0 (fun c s => cc0_sc_copy (coordsV c s)
          eV (Memref.isWhole_whole _) oV (Memref.isWhole_whole _) tV (Memref.isWhole_whole _) sV (Memref.isWhole_whole _)
          cc0_scratch2 cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Obl

/-! ## The shared memory's slots split and join -/

theorem shSet_eq (p : Fin 16 × Fin 2) : shSet p = (shRect p.1 p.2).set := by
  show ((View.whole (cc0_scratch1 : Ref sig .scVector)).slice (shRect p.1 p.2)).set = _
  rw [View.set_slice]; exact Finset.map_refl

theorem sh_disjoint : ∀ p ∈ (Finset.univ : Finset (Fin 16 × Fin 2)), ∀ p' ∈ (Finset.univ : Finset (Fin 16 × Fin 2)), p ≠ p' → Disjoint (shSet p) (shSet p') := by
  intro p _ p' _ h
  rw [shSet_eq, shSet_eq]
  by_cases h1 : p.1 = p'.1
  · have h2 : p.2.val ≠ p'.2.val := fun e => h (Prod.ext h1 (Fin.ext e))
    refine Rect.unit_disjoint (1 : Fin 4) ?_
    simp; omega
  · have h2 : p.1.val ≠ p'.1.val := fun e => h1 (Fin.ext e)
    refine Rect.unit_disjoint (0 : Fin 4) ?_
    simp; omega

theorem sh_cover : (Finset.univ : Finset (Fin 16 × Fin 2)).biUnion shSet = Finset.univ := by
  ext i
  simp only [Finset.mem_biUnion, Finset.mem_univ, true_and, iff_true]
  refine ⟨(⟨(i 0).val, (i 0).isLt⟩, ⟨(i 1).val, (i 1).isLt⟩), ?_⟩
  rw [shSet_eq, Rect.mem_set_unit]
  intro a
  match a with
  | 0 => simp
  | 1 => simp
  | 2 => exact ⟨Nat.zero_le _, by have := (i 2).isLt; simpa using this⟩
  | 3 => exact ⟨Nat.zero_le _, by have := (i 3).isLt; simpa using this⟩

theorem shPts_slots (d : Dev nD) (c : Fin τ.nSC) (f : Buf (Elt F) (shLoc d c)) :
    (shLoc d c ↦{fullShare} f : sProp 𝕄)
      = bigSep Finset.univ fun s : Fin 16 => iprop((shLoc d c ↦[shSetN s.val 0]{fullShare} f) ∗ shLoc d c ↦[shSetN s.val 1]{fullShare} f) := by
  rw [show (bigSep Finset.univ fun s : Fin 16 => (iprop((shLoc d c ↦[shSetN s.val 0]{fullShare} f) ∗ shLoc d c ↦[shSetN s.val 1]{fullShare} f) : sProp 𝕄))
      = bigSep Finset.univ fun s : Fin 16 => bigSep Finset.univ fun j : Fin 2 => shLoc d c ↦[shSet (s, j)]{fullShare} f from
    bigSep_congr fun s _ => by rw [bigSep_univ_two, shSetN_lt s.isLt (by decide), shSetN_lt s.isLt (by decide)]; rfl]
  rw [← bigSep_univ_prod (fun p : Fin 16 × Fin 2 => (shLoc d c ↦[shSet p]{fullShare} f : sProp 𝕄)),
    ← pointsTo_biUnion Finset.univ (ℓ := shLoc d c) shSet sh_disjoint, sh_cover]; try rfl

theorem shSlots_split (d : Dev nD) (c : Fin τ.nSC) :
    (iprop(∃ f, shLoc d c ↦{fullShare} f) : sProp 𝕄) ⊢ bigSep Finset.univ fun s : Fin 16 => shSlots (F := F) d c s.val := by
  iintro ⟨%f, H⟩
  ihave H' := (Entails.of_eq (shPts_slots d c f)) $$ H
  ihave H'' := (SparseCore.ent (bigSep_mono (s := (Finset.univ : Finset (Fin 16)))
    (Φ := fun s : Fin 16 => (iprop((shLoc d c ↦[shSetN s.val 0]{fullShare} f) ∗ shLoc d c ↦[shSetN s.val 1]{fullShare} f) : sProp 𝕄))
    (Ψ := fun s : Fin 16 => shSlots (F := F) d c s.val) fun s _ =>
      (show (iprop((shLoc d c ↦[shSetN s.val 0]{fullShare} f) ∗ shLoc d c ↦[shSetN s.val 1]{fullShare} f) : sProp 𝕄) ⊢ shSlots (F := F) d c s.val from by
        iintro ⟨H0, H1⟩
        isplitl [H0]
        · iexists _; iexact H0
        · iexists _; iexact H1))) $$ H'
  iexact H''

theorem shSlots_join [FloatOps F] (d : Dev nD) (c : Fin τ.nSC) :
    (bigSep Finset.univ fun s : Fin 16 => shSlots (F := F) d c s.val) ⊢ (iprop(∃ f, shLoc d c ↦{fullShare} f) : sProp 𝕄) := by
  rw [show (bigSep Finset.univ fun s : Fin 16 => shSlots (F := F) d c s.val)
      = bigSep Finset.univ fun p : Fin 16 × Fin 2 => (iprop(∃ f, shLoc d c ↦[shSet p]{fullShare} f) : sProp 𝕄) from by
    rw [bigSep_univ_prod]
    exact bigSep_congr fun s _ => by
      rw [bigSep_univ_two]
      show (iprop((∃ f, shLoc d c ↦[shSetN s.val 0]{fullShare} f) ∗ ∃ f, shLoc d c ↦[shSetN s.val 1]{fullShare} f) : sProp 𝕄) = _
      rw [shSetN_lt s.isLt (by decide), shSetN_lt s.isLt (by decide)]; rfl]
  refine (bigSep_exists_pi Finset.univ (fun p (f : Buf (Elt F) (shLoc d c)) => (shLoc d c ↦[shSet p]{fullShare} f : sProp 𝕄))).trans ?_
  iintro ⟨%fs, H⟩
  ihave H' := (pointsTo_biUnion_join Finset.univ shSet fs (fs (0, 0)) sh_disjoint) $$ H
  icases H' with ⟨%g, -, Hg⟩
  rw [sh_cover]
  iexists g; iexact Hg

/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit [FloatOps F] : (K (F := F)).VecSplit (P m) 0 := by
  intro d c
  show iprop((bigSep Finset.univ fun s : Fin 16 => bigSep Finset.univ fun k : Fin 8 => inCh m d c.val s.val k.val) ∗ ownBufs (S d ((K (F := F)).core 0 c)))
    ⊢ |={Set.univ}=> iprop((bigSep Finset.univ fun i : Fin 16 => iprop((bigSep Finset.univ fun k : Fin 8 => inCh m d c.val i.val k.val) ∗ shSlots d ((K (F := F)).core 0 c) i.val))
      ∗ ((bigSep Finset.univ fun i : Fin 16 => iprop((bigSep Finset.univ fun k : Fin 8 => outCh m d c.val i.val k.val) ∗ shSlots d ((K (F := F)).core 0 c) i.val))
        -∗ iprop((bigSep Finset.univ fun s : Fin 16 => bigSep Finset.univ fun k : Fin 8 => outCh m d c.val s.val k.val) ∗ ownBufs (S d ((K (F := F)).core 0 c)))))
  rw [bigSep_sep' Finset.univ (fun i : Fin 16 => bigSep Finset.univ fun k : Fin 8 => inCh m d c.val i.val k.val) (fun i : Fin 16 => shSlots d ((K (F := F)).core 0 c) i.val),
    bigSep_sep' Finset.univ (fun i : Fin 16 => bigSep Finset.univ fun k : Fin 8 => outCh m d c.val i.val k.val) (fun i : Fin 16 => shSlots d ((K (F := F)).core 0 c) i.val), ownBufs_S]
  iintro ⟨Hin, Hsh, Hrest⟩; imodintro
  isplitl [Hin Hsh]
  · isplitl [Hin]; · iexact Hin
    iapply (shSlots_split d _); iexact Hsh
  iintro ⟨Hout, Hsh⟩
  isplitl [Hout]; · iexact Hout
  isplitl [Hsh]; · iapply (shSlots_join d _); iexact Hsh
  iexact Hrest

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ (eLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes for the two SparseCores is the table and the result whole, -/
theorem st0_eq (d : Dev nD) : (bigSep Finset.univ fun c : Fin ((K (F := F)).nCore 0) => (P m).st 0 d c)
    = iprop((eLoc d ↦{fullShare} m (eLoc d)) ∗ oLoc d ↦{fullShare} m (oLoc d)) := by
  show (bigSep Finset.univ fun c : Fin 2 => bigSep Finset.univ fun s : Fin 16 => bigSep Finset.univ fun k : Fin 8 => inCh m d c.val s.val k.val) = _
  rw [ePts_blocks, oPts_blocks]
  simp only [bigSep_sep']
/-- and what it hands back is the table whole and the result whole, the table's rows under the leading unit axis. -/
theorem dn0_eq (d : Dev nD) : (bigSep Finset.univ fun c : Fin ((K (F := F)).nCore 0) => (P m).dn 0 d c)
    = iprop((eLoc d ↦{fullShare} m (eLoc d)) ∗ oLoc d ↦{fullShare} Cert.Spec.lift (m (eLoc d))) := by
  show (bigSep Finset.univ fun c : Fin 2 => bigSep Finset.univ fun s : Fin 16 => bigSep Finset.univ fun k : Fin 8 => outCh m d c.val s.val k.val) = _
  rw [ePts_blocks, oPts_blocks]
  simp only [bigSep_sep']

/-- What @main leaves the claim: both arguments at their launch contents, the result at the table's rows. -/
abbrev FIN (d : Dev nD) : sProp 𝕄 :=
  iprop((xLoc d ↦{fullShare} m (xLoc d)) ∗ (eLoc d ↦{fullShare} m (eLoc d)) ∗ oLoc d ↦{fullShare} Cert.Spec.lift (m (eLoc d)))

section Main

variable [FloatOps F]

/-- @main on device `d`'s TensorCore: the one call, from the table and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, He, Ho⟩, -, -⟩, -⟩
  iapply ((K (F := F)).wp_run (D (F := F)) 𝒱 (EH := EH) (P := P m) κ d 0) $$ [Hst Hx He Ho]
  isplitr; · iexact Hctx
  isplitl [Hst]; · iexact Hst
  isplitl [He Ho]
  · rw [st0_eq]
    isplitl [He]; · iexact He
    iexact Ho
  iintro ⟨Hst, Hdn⟩
  ihave Hdn' := (Entails.of_eq (dn0_eq m d)) $$ Hdn
  icases Hdn' with ⟨He, Ho⟩
  imodintro
  isplitl [Hst]; · iexact Hst
  isplitl [Hx]; · iexact Hx
  isplitl [He]; · iexact He
  iexact Ho

end Main

def fq (d : Dev nD) (s' : Phys nD τ sig (Elt F)) : Prop :=
  s'.mem.mem (xLoc d) = m (xLoc d) ∧ s'.mem.mem (eLoc d) = m (eLoc d) ∧ s'.mem.mem (oLoc d) = Cert.Spec.lift (m (eLoc d))

theorem hfin (d : Dev nD) (s' : Phys nD τ sig (Elt F)) : iprop(FIN m d ∗ SI s') ⊢ (⌜fq m d s'⌝ : sProp 𝕄) := by
  iintro ⟨⟨Hx, He, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (SI_pointsTo_agree (st := s') (ℓ := oLoc d) (I := Finset.univ) (q := fullShare) (f := Cert.Spec.lift (m (eLoc d)))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- Both arguments end as launched, and the result is the table's rows under the leading unit axis. -/
def QC : PUnit × MemSt nD τ sig (Elt F) → Prop := fun r => ∀ c : Dev nD,
  r.2.mem (xLoc c) = m (xLoc c) ∧ r.2.mem (eLoc c) = m (eLoc c) ∧ r.2.mem (oLoc c) = Cert.Spec.lift (m (eLoc c))

theorem run_main [FloatOps F] [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => vecSplit m)
    m ρ main (fun _ => iprop(emp)) (FIN m) (u₀ (F := F)) (sep_elim_left.trans (hu₀ m)) (hmain m ρ) (fq m) (hfin m) (QC m) (fun _ h => h)

end Cert.Proof.Bits

end
-- ==== Proof.IdealSetup.lean ====
/-
  The copy kernel as the launch theorem sees it: the program's configuration, the ghost state (the handshakes' rounds
  beside the transfers' counters), and the pieces of memory one vector subcore's task works on.  Subcore `s` of
  SparseCore `c` moves rows `[512 s + 256 c, 512 s + 256 c + 256)` of the table, thirty-two rows at a time: the
  even chunks through the two halves of its own vector memory, the odd chunks through its two slots of the
  SparseCore's shared memory.  Rows are counted in blocks of thirty-two: chunk `k` of that subcore is block
  `16 s + 8 c + k` of the 256 blocks of the table, and of the result.
-/
import proofs.«210063_g2302102470798_cont_8to1_71_18_alg».proof.Defs
import proofs.«210063_g2302102470798_cont_8to1_71_18_alg».proof.Proof.Gen.KernelIdeal
import proofs.«210063_g2302102470798_cont_8to1_71_18_alg».proof.Proof.Gen.KernelIdeal.Skeleton
import proofs.«210063_g2302102470798_cont_8to1_71_18_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.Ideal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays and the scratch memories -/

abbrev eLoc (d : Dev nD) : Loc nD τ sig := (SparseCore.T d).loc main_arg1
abbrev xLoc (d : Dev nD) : Loc nD τ sig := (SparseCore.T d).loc main_arg0
abbrev oLoc (d : Dev nD) : Loc nD τ sig := (SparseCore.T d).loc main_v0

/-- SparseCore `c`'s shared memory, as each of its vector subcores addresses it. -/
abbrev shRef (c : Fin τ.nSC) : DevRef τ sig := ⟨.shared, ⟨0, by decide⟩, c⟩
abbrev shLoc (d : Dev nD) (c : Fin τ.nSC) : Loc nD τ sig := (d, shRef c)

abbrev eV : Memref sig .scVector .hbm S8192x1024 .f32 := Memref.whole main_arg1_scv
abbrev oV : Memref sig .scVector .hbm S1x8192x1024 .f32 := Memref.whole main_v0_scv
abbrev tV : Memref sig .scVector .vmem S2x32x1024 .f32 := Memref.whole cc0_scratch0
abbrev sV : Memref sig .scVector .shared S16x2x32x1024 .f32 := Memref.whole cc0_scratch1

/-- Thirty-two rows of the table from the row the word `w` names, as the task slices them. -/
abbrev eCh (L : grid0.Coords) (w : BitVec 32) (h : ∀ a, (k0_off1 L w) a + S32x1024.size a ≤ S8192x1024.size a) :
    Memref sig .scVector .hbm S32x1024 .f32 :=
  (eV).slice (Rect.unit (s := S8192x1024) (k0_off1 L w) S32x1024.size h) (fun _ => rfl)
/-- The same rows of the result. -/
abbrev oCh (L : grid0.Coords) (w : BitVec 32) (h : ∀ a, (k0_off4 L w) a + S1x32x1024.size a ≤ S1x8192x1024.size a) :
    Memref sig .scVector .hbm S32x1024 .f32 :=
  ((oV).slice (Rect.unit (s := S1x8192x1024) (k0_off4 L w) S1x32x1024.size h) (fun _ => rfl)).squeeze S32x1024 squeezes_S1x32x1024_S32x1024
/-- The two halves of a subcore's own vector memory. -/
abbrev tSl0 : Memref sig .scVector .vmem S32x1024 .f32 :=
  ((tV).slice (Rect.unit (s := S2x32x1024) ![0, 0, 0] S1x32x1024.size inb_S2x32x1024_S1x32x1024_0_0_0) (fun _ => rfl)).squeeze S32x1024 squeezes_S1x32x1024_S32x1024
abbrev tSl1 : Memref sig .scVector .vmem S32x1024 .f32 :=
  ((tV).slice (Rect.unit (s := S2x32x1024) ![1, 0, 0] S1x32x1024.size inb_S2x32x1024_S1x32x1024_1_0_0) (fun _ => rfl)).squeeze S32x1024 squeezes_S1x32x1024_S32x1024
/-- A subcore's two slots of the shared memory. -/
abbrev sSl0 (L : grid0.Coords) : Memref sig .scVector .shared S32x1024 .f32 :=
  ((sV).slice (Rect.unit (s := S16x2x32x1024) (k0_off2 L) S1x1x32x1024.size (k0_off2_inb L)) (fun _ => rfl)).squeeze S32x1024 squeezes_S1x1x32x1024_S32x1024
abbrev sSl1 (L : grid0.Coords) : Memref sig .scVector .shared S32x1024 .f32 :=
  ((sV).slice (Rect.unit (s := S16x2x32x1024) (k0_off3 L) S1x1x32x1024.size (k0_off3_inb L)) (fun _ => rfl)).squeeze S32x1024 squeezes_S1x1x32x1024_S32x1024

/-- The eight transfer semaphores of a task, as it names them. -/
abbrev semA0 : DmaSems sig S_ := ((cc0_scratch2).slice (Rect.unit (s := S2) ![0] S1.size inb_S2_S1_0)).squeeze S_ squeezes_S1_S_
abbrev semA1 : DmaSems sig S_ := ((cc0_scratch2).slice (Rect.unit (s := S2) ![1] S1.size inb_S2_S1_1)).squeeze S_ squeezes_S1_S_
abbrev semB0 : DmaSems sig S_ := ((cc0_scratch3).slice (Rect.unit (s := S2) ![0] S1.size inb_S2_S1_0)).squeeze S_ squeezes_S1_S_
abbrev semB1 : DmaSems sig S_ := ((cc0_scratch3).slice (Rect.unit (s := S2) ![1] S1.size inb_S2_S1_1)).squeeze S_ squeezes_S1_S_
abbrev semC0 : DmaSems sig S_ := ((cc0_scratch4).slice (Rect.unit (s := S2) ![0] S1.size inb_S2_S1_0)).squeeze S_ squeezes_S1_S_
abbrev semC1 : DmaSems sig S_ := ((cc0_scratch4).slice (Rect.unit (s := S2) ![1] S1.size inb_S2_S1_1)).squeeze S_ squeezes_S1_S_
abbrev semD0 : DmaSems sig S_ := ((cc0_scratch5).slice (Rect.unit (s := S2) ![0] S1.size inb_S2_S1_0)).squeeze S_ squeezes_S1_S_
abbrev semD1 : DmaSems sig S_ := ((cc0_scratch5).slice (Rect.unit (s := S2) ![1] S1.size inb_S2_S1_1)).squeeze S_ squeezes_S1_S_

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

end Cert.Proof.Ideal

end
-- ==== Proof.IdealViews.lean ====
/-
  How the arrays and the scratch memories fall into the pieces the tasks work on.
  The table and the result are each 256 blocks of thirty-two rows; block `16 s + 8 c + k` is chunk `k` of
  subcore `s` of SparseCore `c`, so the blocks, taken over all `c < 2`, `s < 16`, `k < 8`, are pairwise disjoint
  and cover the array.  A subcore's vector memory is its two halves; row `s` of a SparseCore's shared memory is the
  two slots subcore `s` uses.
-/
import proofs.«210063_g2302102470798_cont_8to1_71_18_alg».proof.Proof.IdealSetup

noncomputable section

namespace Cert.Proof.Ideal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Blocks of thirty-two rows -/

theorem hdivE : 256 ∣ S8192x1024.size 0 := ⟨32, rfl⟩
theorem hdivO : 256 ∣ S1x8192x1024.size 1 := ⟨32, rfl⟩
abbrev eBlk (b : Fin 256) : Rect S8192x1024 := Rect.part (s := S8192x1024) (a₀ := 0) hdivE b
abbrev oBlk (b : Fin 256) : Rect S1x8192x1024 := Rect.part (s := S1x8192x1024) (a₀ := 1) hdivO b
abbrev eSet (b : Fin 256) : Finset S8192x1024.Idx := ((eV).view.slice (eBlk b)).set
abbrev oSet (b : Fin 256) : Finset S1x8192x1024.Idx := ((oV).view.slice (oBlk b)).set

/-- Block `n` of the table's rows, for `n < 256` (no element otherwise). -/
def eSetN (n : ℕ) : Finset S8192x1024.Idx := if h : n < 256 then eSet ⟨n, h⟩ else ∅
/-- Block `n` of the result's rows. -/
def oSetN (n : ℕ) : Finset S1x8192x1024.Idx := if h : n < 256 then oSet ⟨n, h⟩ else ∅

theorem eSetN_lt {n : ℕ} (h : n < 256) : eSetN n = eSet ⟨n, h⟩ := dif_pos h
theorem oSetN_lt {n : ℕ} (h : n < 256) : oSetN n = oSet ⟨n, h⟩ := dif_pos h

theorem eSet_eq (b : Fin 256) : eSet b = (eBlk b).set := by
  show ((View.whole (main_arg1_scv : Ref sig .scVector)).slice (eBlk b)).set = _
  rw [View.set_slice]; exact Finset.map_refl
theorem oSet_eq (b : Fin 256) : oSet b = (oBlk b).set := by
  show ((View.whole (main_v0_scv : Ref sig .scVector)).slice (oBlk b)).set = _
  rw [View.set_slice]; exact Finset.map_refl

theorem e_disjoint : ∀ i ∈ (Finset.univ : Finset (Fin 256)), ∀ j ∈ (Finset.univ : Finset (Fin 256)), i ≠ j → Disjoint (eSet i) (eSet j) :=
  fun i _ j _ h => by rw [eSet_eq, eSet_eq]; exact Rect.part_disjoint hdivE h
theorem o_disjoint : ∀ i ∈ (Finset.univ : Finset (Fin 256)), ∀ j ∈ (Finset.univ : Finset (Fin 256)), i ≠ j → Disjoint (oSet i) (oSet j) :=
  fun i _ j _ h => by rw [oSet_eq, oSet_eq]; exact Rect.part_disjoint hdivO h
theorem e_cover : (Finset.univ : Finset (Fin 256)).biUnion eSet = Finset.univ :=
  (Finset.biUnion_congr rfl fun i _ => eSet_eq i).trans (Rect.biUnion_part hdivE)
theorem o_cover : (Finset.univ : Finset (Fin 256)).biUnion oSet = Finset.univ :=
  (Finset.biUnion_congr rfl fun i _ => oSet_eq i).trans (Rect.biUnion_part hdivO)

/-- Block `16 s + 8 c + k` from `(c, s, k)`: a bijection of `2 × 16 × 8` onto the 256 blocks. -/
def blkEquiv : Fin 2 × Fin 16 × Fin 8 ≃ Fin 256 where
  toFun x := ⟨16 * x.2.1.val + 8 * x.1.val + x.2.2.val, by have := x.1.isLt; have := x.2.1.isLt; have := x.2.2.isLt; omega⟩
  invFun b := (⟨b.val % 16 / 8, by have := b.isLt; omega⟩, ⟨b.val / 16, by have := b.isLt; omega⟩, ⟨b.val % 8, by omega⟩)
  left_inv x := by
    obtain ⟨c, s, k⟩ := x
    have := c.isLt; have := s.isLt; have := k.isLt
    refine Prod.ext (Fin.ext ?_) (Prod.ext (Fin.ext ?_) (Fin.ext ?_)) <;> simp only <;> omega
  right_inv b := by
    have := b.isLt
    refine Fin.ext ?_; simp only; omega

theorem bigSep_blocks (Φ : ℕ → sProp 𝕄) :
    (bigSep Finset.univ fun b : Fin 256 => Φ b.val)
      = bigSep Finset.univ fun c : Fin 2 => bigSep Finset.univ fun s : Fin 16 => bigSep Finset.univ fun k : Fin 8 => Φ (16 * s.val + 8 * c.val + k.val) := by
  rw [bigSep_univ_equiv blkEquiv (fun b : Fin 256 => Φ b.val), bigSep_univ_prod]
  refine bigSep_congr fun c _ => ?_
  rw [bigSep_univ_prod]
  rfl

/-- The table whole is its blocks. -/
theorem ePts_blocks (d : Dev nD) (f : Buf (Elt F) (eLoc d)) :
    (eLoc d ↦{fullShare} f : sProp 𝕄)
      = bigSep Finset.univ fun c : Fin 2 => bigSep Finset.univ fun s : Fin 16 => bigSep Finset.univ fun k : Fin 8 =>
          eLoc d ↦[eSetN (16 * s.val + 8 * c.val + k.val)]{fullShare} f := by
  rw [← bigSep_blocks (F := F) (fun n => eLoc d ↦[eSetN n]{fullShare} f)]
  rw [show (bigSep Finset.univ fun b : Fin 256 => (eLoc d ↦[eSetN b.val]{fullShare} f : sProp 𝕄))
      = bigSep Finset.univ fun b : Fin 256 => eLoc d ↦[eSet b]{fullShare} f from bigSep_congr fun b _ => by rw [eSetN_lt b.isLt]]
  rw [← pointsTo_biUnion Finset.univ (ℓ := eLoc d) eSet e_disjoint, e_cover]; try rfl
/-- The result whole is its blocks. -/
theorem oPts_blocks (d : Dev nD) (f : Buf (Elt F) (oLoc d)) :
    (oLoc d ↦{fullShare} f : sProp 𝕄)
      = bigSep Finset.univ fun c : Fin 2 => bigSep Finset.univ fun s : Fin 16 => bigSep Finset.univ fun k : Fin 8 =>
          oLoc d ↦[oSetN (16 * s.val + 8 * c.val + k.val)]{fullShare} f := by
  rw [← bigSep_blocks (F := F) (fun n => oLoc d ↦[oSetN n]{fullShare} f)]
  rw [show (bigSep Finset.univ fun b : Fin 256 => (oLoc d ↦[oSetN b.val]{fullShare} f : sProp 𝕄))
      = bigSep Finset.univ fun b : Fin 256 => oLoc d ↦[oSet b]{fullShare} f from bigSep_congr fun b _ => by rw [oSetN_lt b.isLt]]
  rw [← pointsTo_biUnion Finset.univ (ℓ := oLoc d) oSet o_disjoint, o_cover]; try rfl

/-! ## The chunks a task slices are those blocks -/

section Tile

variable (L : grid0.Coords)

theorem L0_lt : (L 0).val < 2 := (L 0).isLt
theorem L1_lt : (L 1).val < 16 := (L 1).isLt

/-- The block number of chunk `k` of the task at `L`. -/
abbrev blkOf (k : Fin 8) : ℕ := 16 * (L 1).val + 8 * (L 0).val + k.val
theorem blkOf_lt (k : Fin 8) : blkOf L k < 256 := by
  have := L0_lt L; have := L1_lt L; have := k.isLt; unfold blkOf; omega

theorem eRect_eq (k : Fin 8) :
    Rect.unit (s := S8192x1024) (k0_off1 L (BitVec.ofNat 32 (32 * k.val))) S32x1024.size (k0_off1_inb L k) = eBlk ⟨blkOf L k, blkOf_lt L k⟩ := by
  unfold eBlk Rect.part Rect.block
  congr 1 <;> funext a
  · rw [k0_off1_eq]
    match a with
    | 0 => simp [Shape.partIx, Shape.partSize, blkOf]; omega
    | 1 => simp [Shape.partIx, Shape.partSize]
  · match a with
    | 0 => simp [Shape.partSize]
    | 1 => simp [Shape.partSize]

theorem oRect_eq (k : Fin 8) :
    Rect.unit (s := S1x8192x1024) (k0_off4 L (BitVec.ofNat 32 (32 * k.val))) S1x32x1024.size (k0_off4_inb L k) = oBlk ⟨blkOf L k, blkOf_lt L k⟩ := by
  unfold oBlk Rect.part Rect.block
  congr 1 <;> funext a
  · rw [k0_off4_eq]
    match a with
    | 0 => simp [Shape.partIx, Shape.partSize]
    | 1 => simp [Shape.partIx, Shape.partSize, blkOf]; omega
    | 2 => simp [Shape.partIx, Shape.partSize]
  · match a with
    | 0 => simp [Shape.partSize]
    | 1 => simp [Shape.partSize]
    | 2 => simp [Shape.partSize]

theorem set_eCh (k : Fin 8) : (eCh L (BitVec.ofNat 32 (32 * k.val)) (k0_off1_inb L k)).view.set = eSetN (blkOf L k) := by
  rw [eSetN_lt (blkOf_lt L k)]
  show ((eV).view.slice (Rect.unit (s := S8192x1024) (k0_off1 L (BitVec.ofNat 32 (32 * k.val))) S32x1024.size (k0_off1_inb L k))).set
    = ((eV).view.slice (eBlk ⟨blkOf L k, blkOf_lt L k⟩)).set
  exact eRect_eq L k ▸ rfl

theorem set_oCh (k : Fin 8) : (oCh L (BitVec.ofNat 32 (32 * k.val)) (k0_off4_inb L k)).view.set = oSetN (blkOf L k) := by
  rw [oSetN_lt (blkOf_lt L k)]
  show (((oV).view.slice (Rect.unit (s := S1x8192x1024) (k0_off4 L (BitVec.ofNat 32 (32 * k.val))) S1x32x1024.size (k0_off4_inb L k))).reshape S32x1024
      squeezes_S1x32x1024_S32x1024.numel_eq).set = ((oV).view.slice (oBlk ⟨blkOf L k, blkOf_lt L k⟩)).set
  rw [View.set_reshape]
  exact oRect_eq L k ▸ rfl

end Tile

end Cert.Proof.Ideal

end
-- ==== Proof.IdealPieces.lean ====
/-
  The pieces of memory one vector subcore's task works on, as the task's own slices address them: its eight chunks of
  the table and of the result (blocks of thirty-two rows), the two halves of its own vector memory, and its two slots
  of the shared memory.  And what a chunk of the result holds once the table's chunk of the same number has been copied
  into it through a buffer: chunk `k` of the result lies at rows `512 s + 256 c + 32 k + y`, `y < 32`, behind the
  leading coordinate `0`, the table's chunk at the same rows, so entry `(0, r, c)` of the result is entry `(r, c)` of
  the table.
-/
import proofs.«210063_g2302102470798_cont_8to1_71_18_alg».proof.Proof.IdealViews
import proofs.«210063_g2302102470798_cont_8to1_71_18_alg».proof.Proof.LibWholePiece

noncomputable section

namespace Cert.Proof.Ideal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.LibWholePiece

variable {F : FTy → Type}

local notation "𝕄" => MT nD τ sig (HIx 1) (Elt F) ℕ UU ℕ

/-! ## The halves of a subcore's vector memory, and its slots of the shared memory -/

theorem hdivT : 2 ∣ S2x32x1024.size 0 := ⟨1, rfl⟩
abbrev tBlk (j : Fin 2) : Rect S2x32x1024 := Rect.part (s := S2x32x1024) (a₀ := 0) hdivT j
abbrev tSet (j : Fin 2) : Finset S2x32x1024.Idx := ((tV).view.slice (tBlk j)).set

theorem tSet_eq (j : Fin 2) : tSet j = (tBlk j).set := by
  show ((View.whole (cc0_scratch0 : Ref sig .scVector)).slice (tBlk j)).set = _
  rw [View.set_slice]; exact Finset.map_refl
theorem t_disjoint : Disjoint (tSet 0) (tSet 1) := by
  rw [tSet_eq, tSet_eq]; exact Rect.part_disjoint hdivT (by decide)
theorem t_cover : tSet 0 ∪ tSet 1 = Finset.univ := by
  have h := Rect.biUnion_part (s := S2x32x1024) (a₀ := 0) hdivT
  rw [show (Finset.univ : Finset (Fin 2)) = {0, 1} by decide, Finset.biUnion_insert, Finset.singleton_biUnion] at h
  rw [tSet_eq, tSet_eq]; exact h

theorem tRect0_eq : Rect.unit (s := S2x32x1024) ![0, 0, 0] S1x32x1024.size inb_S2x32x1024_S1x32x1024_0_0_0 = tBlk 0 := by
  unfold tBlk Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
theorem tRect1_eq : Rect.unit (s := S2x32x1024) ![1, 0, 0] S1x32x1024.size inb_S2x32x1024_S1x32x1024_1_0_0 = tBlk 1 := by
  unfold tBlk Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem set_tSl0 : (tSl0).view.set = tSet 0 := by
  show (((tV).view.slice (Rect.unit (s := S2x32x1024) ![0, 0, 0] S1x32x1024.size inb_S2x32x1024_S1x32x1024_0_0_0)).reshape S32x1024
      squeezes_S1x32x1024_S32x1024.numel_eq).set = ((tV).view.slice (tBlk 0)).set
  rw [View.set_reshape]
  exact tRect0_eq ▸ rfl
theorem set_tSl1 : (tSl1).view.set = tSet 1 := by
  show (((tV).view.slice (Rect.unit (s := S2x32x1024) ![1, 0, 0] S1x32x1024.size inb_S2x32x1024_S1x32x1024_1_0_0)).reshape S32x1024
      squeezes_S1x32x1024_S32x1024.numel_eq).set = ((tV).view.slice (tBlk 1)).set
  rw [View.set_reshape]
  exact tRect1_eq ▸ rfl

/-- Slot `j` of row `s` of a SparseCore's shared memory. -/
theorem shInb (s : Fin 16) (j : Fin 2) : ∀ a, (![s.val, j.val, 0, 0] : Fin 4 → ℕ) a + S1x1x32x1024.size a ≤ S16x2x32x1024.size a := by
  intro a
  have := s.isLt; have := j.isLt
  match a with
  | 0 => simp <;> omega
  | 1 => simp <;> omega
  | 2 => simp
  | 3 => simp
abbrev shRect (s : Fin 16) (j : Fin 2) : Rect S16x2x32x1024 := Rect.unit (s := S16x2x32x1024) ![s.val, j.val, 0, 0] S1x1x32x1024.size (shInb s j)
abbrev shSet (p : Fin 16 × Fin 2) : Finset S16x2x32x1024.Idx := ((sV).view.slice (shRect p.1 p.2)).set

/-- Slot `j` of row `s`, for `s < 16` and `j < 2` (no element otherwise). -/
def shSetN (s j : ℕ) : Finset S16x2x32x1024.Idx := if h : s < 16 ∧ j < 2 then shSet (⟨s, h.1⟩, ⟨j, h.2⟩) else ∅
theorem shSetN_lt {s j : ℕ} (hs : s < 16) (hj : j < 2) : shSetN s j = shSet (⟨s, hs⟩, ⟨j, hj⟩) := dif_pos ⟨hs, hj⟩

section Tile

variable (d : Dev nD) (L : grid0.Coords)

abbrev jL : Fin 16 := ⟨(L 1).val, L1_lt L⟩

theorem sRect0_eq : Rect.unit (s := S16x2x32x1024) (k0_off2 L) S1x1x32x1024.size (k0_off2_inb L) = shRect (jL L) 0 := by
  unfold shRect
  congr 1
  rw [k0_off2_eq]; rfl
theorem sRect1_eq : Rect.unit (s := S16x2x32x1024) (k0_off3 L) S1x1x32x1024.size (k0_off3_inb L) = shRect (jL L) 1 := by
  unfold shRect
  congr 1
  rw [k0_off3_eq]; rfl

theorem set_sSl0 : (sSl0 L).view.set = shSet (jL L, 0) := by
  show (((sV).view.slice (Rect.unit (s := S16x2x32x1024) (k0_off2 L) S1x1x32x1024.size (k0_off2_inb L))).reshape S32x1024
      squeezes_S1x1x32x1024_S32x1024.numel_eq).set = ((sV).view.slice (shRect (jL L) 0)).set
  rw [View.set_reshape]
  exact sRect0_eq L ▸ rfl
theorem set_sSl1 : (sSl1 L).view.set = shSet (jL L, 1) := by
  show (((sV).view.slice (Rect.unit (s := S16x2x32x1024) (k0_off3 L) S1x1x32x1024.size (k0_off3_inb L))).reshape S32x1024
      squeezes_S1x1x32x1024_S32x1024.numel_eq).set = ((sV).view.slice (shRect (jL L) 1)).set
  rw [View.set_reshape]
  exact sRect1_eq L ▸ rfl

abbrev tLoc : Loc nD τ sig := (V d (cV L) (jV L)).loc cc0_scratch0

/-! ## The pieces as the task's memrefs address them -/

theorem pts_eCh (k : Fin 8) (f : Buf (Elt F) (eLoc d)) :
    ((eCh L (BitVec.ofNat 32 (32 * k.val)) (k0_off1_inb L k)).view.loc (V d (cV L) (jV L))
        ↦[(eCh L (BitVec.ofNat 32 (32 * k.val)) (k0_off1_inb L k)).view.set]{fullShare} f : sProp 𝕄)
      = eLoc d ↦[eSetN (blkOf L k)]{fullShare} f := by
  rw [set_eCh]
theorem pts_oCh (k : Fin 8) (f : Buf (Elt F) (oLoc d)) :
    ((oCh L (BitVec.ofNat 32 (32 * k.val)) (k0_off4_inb L k)).view.loc (V d (cV L) (jV L))
        ↦[(oCh L (BitVec.ofNat 32 (32 * k.val)) (k0_off4_inb L k)).view.set]{fullShare} f : sProp 𝕄)
      = oLoc d ↦[oSetN (blkOf L k)]{fullShare} f := by
  rw [set_oCh]
theorem pts_tSl0 (f : Buf (Elt F) (tLoc d L)) :
    ((tSl0).view.loc (V d (cV L) (jV L)) ↦[(tSl0).view.set]{fullShare} f : sProp 𝕄) = tLoc d L ↦[tSet 0]{fullShare} f := by
  rw [set_tSl0]
theorem pts_tSl1 (f : Buf (Elt F) (tLoc d L)) :
    ((tSl1).view.loc (V d (cV L) (jV L)) ↦[(tSl1).view.set]{fullShare} f : sProp 𝕄) = tLoc d L ↦[tSet 1]{fullShare} f := by
  rw [set_tSl1]
theorem pts_sSl0 (f : Buf (Elt F) (shLoc d (cV L))) :
    ((sSl0 L).view.loc (V d (cV L) (jV L)) ↦[(sSl0 L).view.set]{fullShare} f : sProp 𝕄) = shLoc d (cV L) ↦[shSetN (L 1).val 0]{fullShare} f := by
  rw [set_sSl0, shSetN_lt (L1_lt L) (by decide)]; rfl
theorem pts_sSl1 (f : Buf (Elt F) (shLoc d (cV L))) :
    ((sSl1 L).view.loc (V d (cV L) (jV L)) ↦[(sSl1 L).view.set]{fullShare} f : sProp 𝕄) = shLoc d (cV L) ↦[shSetN (L 1).val 1]{fullShare} f := by
  rw [set_sSl1, shSetN_lt (L1_lt L) (by decide)]; rfl

/-- A subcore's vector memory whole is its two halves. -/
theorem tPts_halves (f : Buf (Elt F) (tLoc d L)) :
    (tLoc d L ↦{fullShare} f : sProp 𝕄) = iprop((tLoc d L ↦[tSet 0]{fullShare} f) ∗ tLoc d L ↦[tSet 1]{fullShare} f) := by
  have h := pointsTo_union (ℓ := tLoc d L) (q := fullShare) (f := f) (U := UU) (Ix := HIx 1) (Name := ℕ) (Lvl := ℕ) t_disjoint
  rw [t_cover] at h
  exact BI.equiv_iff.mp ⟨h.1, h.2⟩
/-- The two halves, each at contents of its own, are the memory whole at some contents. -/
theorem tHalves_join :
    iprop((∃ f, tLoc d L ↦[tSet 0]{fullShare} f) ∗ ∃ f, tLoc d L ↦[tSet 1]{fullShare} f) ⊢ (iprop(∃ f, tLoc d L ↦{fullShare} f) : sProp 𝕄) := by
  iintro ⟨⟨%f0, H0⟩, %f1, H1⟩
  ihave H := (pointsTo_join (ℓ := tLoc d L) (q := fullShare) (f := f0) (g := f1) t_disjoint) $$ [H0 H1]
  · isplitl [H0] <;> iassumption
  rw [t_cover]
  iexists _; iexact H

/-! ## What a chunk of the result holds once the table's chunk has been copied into it -/

theorem squeeze_idx (y : S32x1024.Idx) :
    Shape.reshapeEquiv (s := S1x32x1024) (s' := S32x1024) squeezes_S1x32x1024_S32x1024.numel_eq y = (ix3 (0 : Fin 1) (y 0 : Fin 32) (y 1 : Fin 1024) : S1x32x1024.Idx) := by
  refine Shape.reshapeEquiv_eq_of_rowMajor _ ?_
  rw [Shape.rowMajor_val_three, Shape.rowMajor_val_two]
  simp

theorem emb_match (k : Fin 8) (y : S32x1024.Idx) :
    (eCh L (BitVec.ofNat 32 (32 * k.val)) (k0_off1_inb L k)).view.emb y
      = ix2 (((oCh L (BitVec.ofNat 32 (32 * k.val)) (k0_off4_inb L k)).view.emb y) 1) (((oCh L (BitVec.ofNat 32 (32 * k.val)) (k0_off4_inb L k)).view.emb y) 2) := by
  have h1 : k0_off1 L (BitVec.ofNat 32 (32 * k.val)) 0 = 512 * (L 1).val + 256 * (L 0).val + 32 * k.val := by rw [k0_off1_eq]; rfl
  have h4 : k0_off4 L (BitVec.ofNat 32 (32 * k.val)) 1 = 512 * (L 1).val + 256 * (L 0).val + 32 * k.val := by rw [k0_off4_eq]; rfl
  have h1' : k0_off1 L (BitVec.ofNat 32 (32 * k.val)) 1 = 0 := by rw [k0_off1_eq]; rfl
  have h4' : k0_off4 L (BitVec.ofNat 32 (32 * k.val)) 2 = 0 := by rw [k0_off4_eq]; rfl
  funext a
  apply Fin.ext
  match a with
  | 0 =>
    show ((Rect.unit (s := S8192x1024) (k0_off1 L (BitVec.ofNat 32 (32 * k.val))) S32x1024.size (k0_off1_inb L k)).emb y 0 : ℕ)
      = ((Rect.unit (s := S1x8192x1024) (k0_off4 L (BitVec.ofNat 32 (32 * k.val))) S1x32x1024.size (k0_off4_inb L k)).emb
          (Shape.reshapeEquiv squeezes_S1x32x1024_S32x1024.numel_eq y) 1 : ℕ)
    rw [Rect.emb_apply, Rect.emb_apply]
    simp only [Rect.off_unit, Rect.stride_unit]
    rw [squeeze_idx, h1, h4]
  | 1 =>
    show ((Rect.unit (s := S8192x1024) (k0_off1 L (BitVec.ofNat 32 (32 * k.val))) S32x1024.size (k0_off1_inb L k)).emb y 1 : ℕ)
      = ((Rect.unit (s := S1x8192x1024) (k0_off4 L (BitVec.ofNat 32 (32 * k.val))) S1x32x1024.size (k0_off4_inb L k)).emb
          (Shape.reshapeEquiv squeezes_S1x32x1024_S32x1024.numel_eq y) 2 : ℕ)
    rw [Rect.emb_apply, Rect.emb_apply]
    simp only [Rect.off_unit, Rect.stride_unit]
    rw [squeeze_idx, h1', h4']

/-- A chunk of the result that reads what the table's chunk of the same number reads holds, on its own elements, the
    table's rows under the leading unit axis. -/
theorem chunk_value (k : Fin 8) (fe : Buf (Elt F) (eLoc d)) (g : Buf (Elt F) (oLoc d))
    (hg : (oCh L (BitVec.ofNat 32 (32 * k.val)) (k0_off4_inb L k)).view.read (Elt F) g
      = (eCh L (BitVec.ofNat 32 (32 * k.val)) (k0_off1_inb L k)).view.read (Elt F) fe) :
    ∀ i ∈ oSetN (blkOf L k), g i = Cert.Spec.lift fe i := by
  intro i hi
  rw [← set_oCh L k] at hi
  obtain ⟨y, -, rfl⟩ := Finset.mem_map.mp hi
  have h := congrFun hg y
  rw [View.read_apply, View.read_apply, cast_eq, cast_eq] at h
  rw [Cert.Spec.lift_apply]
  exact h.trans (congrArg fe (emb_match L k y))

theorem done_oCh (k : Fin 8) (fe : Buf (Elt F) (eLoc d)) (fo : Buf (Elt F) (oLoc d)) (P : S32x1024.Idx → Elt F .f32)
    (hP : P = (eCh L (BitVec.ofNat 32 (32 * k.val)) (k0_off1_inb L k)).view.read (Elt F) fe) :
    ((oCh L (BitVec.ofNat 32 (32 * k.val)) (k0_off4_inb L k)).view.loc (V d (cV L) (jV L))
        ↦[(oCh L (BitVec.ofNat 32 (32 * k.val)) (k0_off4_inb L k)).view.set]{fullShare}
        (oCh L (BitVec.ofNat 32 (32 * k.val)) (k0_off4_inb L k)).view.writes (Elt F) fo [⟨Rect.whole S32x1024, P⟩] : sProp 𝕄)
      = oLoc d ↦[oSetN (blkOf L k)]{fullShare} Cert.Spec.lift fe := by
  rw [pts_oCh]
  exact pointsTo_congr (chunk_value d L k fe _ (by rw [read_writes_whole_cons, hP]))

theorem pts_eCh0 (f : Buf (Elt F) (eLoc d)) :
    ((eCh L 0#32 (k0_off1_inb L 0)).view.loc (V d (cV L) (jV L)) ↦[(eCh L 0#32 (k0_off1_inb L 0)).view.set]{fullShare} f : sProp 𝕄)
      = eLoc d ↦[eSetN (blkOf L 0)]{fullShare} f := pts_eCh d L 0 f
theorem pts_eCh1 (f : Buf (Elt F) (eLoc d)) :
    ((eCh L 32#32 (k0_off1_inb L 1)).view.loc (V d (cV L) (jV L)) ↦[(eCh L 32#32 (k0_off1_inb L 1)).view.set]{fullShare} f : sProp 𝕄)
      = eLoc d ↦[eSetN (blkOf L 1)]{fullShare} f := pts_eCh d L 1 f
theorem pts_eCh2 (f : Buf (Elt F) (eLoc d)) :
    ((eCh L 64#32 (k0_off1_inb L 2)).view.loc (V d (cV L) (jV L)) ↦[(eCh L 64#32 (k0_off1_inb L 2)).view.set]{fullShare} f : sProp 𝕄)
      = eLoc d ↦[eSetN (blkOf L 2)]{fullShare} f := pts_eCh d L 2 f
theorem pts_eCh3 (f : Buf (Elt F) (eLoc d)) :
    ((eCh L 96#32 (k0_off1_inb L 3)).view.loc (V d (cV L) (jV L)) ↦[(eCh L 96#32 (k0_off1_inb L 3)).view.set]{fullShare} f : sProp 𝕄)
      = eLoc d ↦[eSetN (blkOf L 3)]{fullShare} f := pts_eCh d L 3 f
theorem pts_eCh4 (f : Buf (Elt F) (eLoc d)) :
    ((eCh L 128#32 (k0_off1_inb L 4)).view.loc (V d (cV L) (jV L)) ↦[(eCh L 128#32 (k0_off1_inb L 4)).view.set]{fullShare} f : sProp 𝕄)
      = eLoc d ↦[eSetN (blkOf L 4)]{fullShare} f := pts_eCh d L 4 f
theorem pts_eCh5 (f : Buf (Elt F) (eLoc d)) :
    ((eCh L 160#32 (k0_off1_inb L 5)).view.loc (V d (cV L) (jV L)) ↦[(eCh L 160#32 (k0_off1_inb L 5)).view.set]{fullShare} f : sProp 𝕄)
      = eLoc d ↦[eSetN (blkOf L 5)]{fullShare} f := pts_eCh d L 5 f
theorem pts_eCh6 (f : Buf (Elt F) (eLoc d)) :
    ((eCh L 192#32 (k0_off1_inb L 6)).view.loc (V d (cV L) (jV L)) ↦[(eCh L 192#32 (k0_off1_inb L 6)).view.set]{fullShare} f : sProp 𝕄)
      = eLoc d ↦[eSetN (blkOf L 6)]{fullShare} f := pts_eCh d L 6 f
theorem pts_eCh7 (f : Buf (Elt F) (eLoc d)) :
    ((eCh L 224#32 (k0_off1_inb L 7)).view.loc (V d (cV L) (jV L)) ↦[(eCh L 224#32 (k0_off1_inb L 7)).view.set]{fullShare} f : sProp 𝕄)
      = eLoc d ↦[eSetN (blkOf L 7)]{fullShare} f := pts_eCh d L 7 f
theorem pts_oCh0 (f : Buf (Elt F) (oLoc d)) :
    ((oCh L 0#32 (k0_off4_inb L 0)).view.loc (V d (cV L) (jV L)) ↦[(oCh L 0#32 (k0_off4_inb L 0)).view.set]{fullShare} f : sProp 𝕄)
      = oLoc d ↦[oSetN (blkOf L 0)]{fullShare} f := pts_oCh d L 0 f
theorem pts_oCh1 (f : Buf (Elt F) (oLoc d)) :
    ((oCh L 32#32 (k0_off4_inb L 1)).view.loc (V d (cV L) (jV L)) ↦[(oCh L 32#32 (k0_off4_inb L 1)).view.set]{fullShare} f : sProp 𝕄)
      = oLoc d ↦[oSetN (blkOf L 1)]{fullShare} f := pts_oCh d L 1 f
theorem pts_oCh2 (f : Buf (Elt F) (oLoc d)) :
    ((oCh L 64#32 (k0_off4_inb L 2)).view.loc (V d (cV L) (jV L)) ↦[(oCh L 64#32 (k0_off4_inb L 2)).view.set]{fullShare} f : sProp 𝕄)
      = oLoc d ↦[oSetN (blkOf L 2)]{fullShare} f := pts_oCh d L 2 f
theorem pts_oCh3 (f : Buf (Elt F) (oLoc d)) :
    ((oCh L 96#32 (k0_off4_inb L 3)).view.loc (V d (cV L) (jV L)) ↦[(oCh L 96#32 (k0_off4_inb L 3)).view.set]{fullShare} f : sProp 𝕄)
      = oLoc d ↦[oSetN (blkOf L 3)]{fullShare} f := pts_oCh d L 3 f
theorem pts_oCh4 (f : Buf (Elt F) (oLoc d)) :
    ((oCh L 128#32 (k0_off4_inb L 4)).view.loc (V d (cV L) (jV L)) ↦[(oCh L 128#32 (k0_off4_inb L 4)).view.set]{fullShare} f : sProp 𝕄)
      = oLoc d ↦[oSetN (blkOf L 4)]{fullShare} f := pts_oCh d L 4 f
theorem pts_oCh5 (f : Buf (Elt F) (oLoc d)) :
    ((oCh L 160#32 (k0_off4_inb L 5)).view.loc (V d (cV L) (jV L)) ↦[(oCh L 160#32 (k0_off4_inb L 5)).view.set]{fullShare} f : sProp 𝕄)
      = oLoc d ↦[oSetN (blkOf L 5)]{fullShare} f := pts_oCh d L 5 f
theorem pts_oCh6 (f : Buf (Elt F) (oLoc d)) :
    ((oCh L 192#32 (k0_off4_inb L 6)).view.loc (V d (cV L) (jV L)) ↦[(oCh L 192#32 (k0_off4_inb L 6)).view.set]{fullShare} f : sProp 𝕄)
      = oLoc d ↦[oSetN (blkOf L 6)]{fullShare} f := pts_oCh d L 6 f
theorem pts_oCh7 (f : Buf (Elt F) (oLoc d)) :
    ((oCh L 224#32 (k0_off4_inb L 7)).view.loc (V d (cV L) (jV L)) ↦[(oCh L 224#32 (k0_off4_inb L 7)).view.set]{fullShare} f : sProp 𝕄)
      = oLoc d ↦[oSetN (blkOf L 7)]{fullShare} f := pts_oCh d L 7 f
theorem done_oCh0 (fe : Buf (Elt F) (eLoc d)) (fo : Buf (Elt F) (oLoc d)) (P : S32x1024.Idx → Elt F .f32)
    (hP : P = (eCh L 0#32 (k0_off1_inb L 0)).view.read (Elt F) fe) :
    ((oCh L 0#32 (k0_off4_inb L 0)).view.loc (V d (cV L) (jV L)) ↦[(oCh L 0#32 (k0_off4_inb L 0)).view.set]{fullShare}
        (oCh L 0#32 (k0_off4_inb L 0)).view.writes (Elt F) fo [⟨Rect.whole S32x1024, P⟩] : sProp 𝕄)
      = oLoc d ↦[oSetN (blkOf L 0)]{fullShare} Cert.Spec.lift fe := done_oCh d L 0 fe fo P hP
theorem done_oCh1 (fe : Buf (Elt F) (eLoc d)) (fo : Buf (Elt F) (oLoc d)) (P : S32x1024.Idx → Elt F .f32)
    (hP : P = (eCh L 32#32 (k0_off1_inb L 1)).view.read (Elt F) fe) :
    ((oCh L 32#32 (k0_off4_inb L 1)).view.loc (V d (cV L) (jV L)) ↦[(oCh L 32#32 (k0_off4_inb L 1)).view.set]{fullShare}
        (oCh L 32#32 (k0_off4_inb L 1)).view.writes (Elt F) fo [⟨Rect.whole S32x1024, P⟩] : sProp 𝕄)
      = oLoc d ↦[oSetN (blkOf L 1)]{fullShare} Cert.Spec.lift fe := done_oCh d L 1 fe fo P hP
theorem done_oCh2 (fe : Buf (Elt F) (eLoc d)) (fo : Buf (Elt F) (oLoc d)) (P : S32x1024.Idx → Elt F .f32)
    (hP : P = (eCh L 64#32 (k0_off1_inb L 2)).view.read (Elt F) fe) :
    ((oCh L 64#32 (k0_off4_inb L 2)).view.loc (V d (cV L) (jV L)) ↦[(oCh L 64#32 (k0_off4_inb L 2)).view.set]{fullShare}
        (oCh L 64#32 (k0_off4_inb L 2)).view.writes (Elt F) fo [⟨Rect.whole S32x1024, P⟩] : sProp 𝕄)
      = oLoc d ↦[oSetN (blkOf L 2)]{fullShare} Cert.Spec.lift fe := done_oCh d L 2 fe fo P hP
theorem done_oCh3 (fe : Buf (Elt F) (eLoc d)) (fo : Buf (Elt F) (oLoc d)) (P : S32x1024.Idx → Elt F .f32)
    (hP : P = (eCh L 96#32 (k0_off1_inb L 3)).view.read (Elt F) fe) :
    ((oCh L 96#32 (k0_off4_inb L 3)).view.loc (V d (cV L) (jV L)) ↦[(oCh L 96#32 (k0_off4_inb L 3)).view.set]{fullShare}
        (oCh L 96#32 (k0_off4_inb L 3)).view.writes (Elt F) fo [⟨Rect.whole S32x1024, P⟩] : sProp 𝕄)
      = oLoc d ↦[oSetN (blkOf L 3)]{fullShare} Cert.Spec.lift fe := done_oCh d L 3 fe fo P hP
theorem done_oCh4 (fe : Buf (Elt F) (eLoc d)) (fo : Buf (Elt F) (oLoc d)) (P : S32x1024.Idx → Elt F .f32)
    (hP : P = (eCh L 128#32 (k0_off1_inb L 4)).view.read (Elt F) fe) :
    ((oCh L 128#32 (k0_off4_inb L 4)).view.loc (V d (cV L) (jV L)) ↦[(oCh L 128#32 (k0_off4_inb L 4)).view.set]{fullShare}
        (oCh L 128#32 (k0_off4_inb L 4)).view.writes (Elt F) fo [⟨Rect.whole S32x1024, P⟩] : sProp 𝕄)
      = oLoc d ↦[oSetN (blkOf L 4)]{fullShare} Cert.Spec.lift fe := done_oCh d L 4 fe fo P hP
theorem done_oCh5 (fe : Buf (Elt F) (eLoc d)) (fo : Buf (Elt F) (oLoc d)) (P : S32x1024.Idx → Elt F .f32)
    (hP : P = (eCh L 160#32 (k0_off1_inb L 5)).view.read (Elt F) fe) :
    ((oCh L 160#32 (k0_off4_inb L 5)).view.loc (V d (cV L) (jV L)) ↦[(oCh L 160#32 (k0_off4_inb L 5)).view.set]{fullShare}
        (oCh L 160#32 (k0_off4_inb L 5)).view.writes (Elt F) fo [⟨Rect.whole S32x1024, P⟩] : sProp 𝕄)
      = oLoc d ↦[oSetN (blkOf L 5)]{fullShare} Cert.Spec.lift fe := done_oCh d L 5 fe fo P hP
theorem done_oCh6 (fe : Buf (Elt F) (eLoc d)) (fo : Buf (Elt F) (oLoc d)) (P : S32x1024.Idx → Elt F .f32)
    (hP : P = (eCh L 192#32 (k0_off1_inb L 6)).view.read (Elt F) fe) :
    ((oCh L 192#32 (k0_off4_inb L 6)).view.loc (V d (cV L) (jV L)) ↦[(oCh L 192#32 (k0_off4_inb L 6)).view.set]{fullShare}
        (oCh L 192#32 (k0_off4_inb L 6)).view.writes (Elt F) fo [⟨Rect.whole S32x1024, P⟩] : sProp 𝕄)
      = oLoc d ↦[oSetN (blkOf L 6)]{fullShare} Cert.Spec.lift fe := done_oCh d L 6 fe fo P hP
theorem done_oCh7 (fe : Buf (Elt F) (eLoc d)) (fo : Buf (Elt F) (oLoc d)) (P : S32x1024.Idx → Elt F .f32)
    (hP : P = (eCh L 224#32 (k0_off1_inb L 7)).view.read (Elt F) fe) :
    ((oCh L 224#32 (k0_off4_inb L 7)).view.loc (V d (cV L) (jV L)) ↦[(oCh L 224#32 (k0_off4_inb L 7)).view.set]{fullShare}
        (oCh L 224#32 (k0_off4_inb L 7)).view.writes (Elt F) fo [⟨Rect.whole S32x1024, P⟩] : sProp 𝕄)
      = oLoc d ↦[oSetN (blkOf L 7)]{fullShare} Cert.Spec.lift fe := done_oCh d L 7 fe fo P hP

end Tile

end Cert.Proof.Ideal

end
-- ==== Proof.IdealBody.lean ====
/-
  The task's run.  Its eight chunks go table → buffer → result; the even ones through the halves of the subcore's own
  vector memory, the odd ones through its slots of the shared memory; slot `j` serves chunks `2j`, `2j + 1`, `2j + 4`, `2j + 5`
  in turn, each copy out waited for before the next copy in.  At the end every chunk of the result holds the table's
  rows of the same numbers and everything the task was lent is back in its hand.
-/
import proofs.«210063_g2302102470798_cont_8to1_71_18_alg».proof.Proof.IdealPieces

noncomputable section

namespace Cert.Proof.Ideal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.LibWholePiece

variable {F : FTy → Type}

local notation "𝕄" => MT nD τ sig (HIx 1) (Elt F) ℕ UU ℕ

variable (m : (ℓ : Loc nD τ sig) → Buf (Elt F) ℓ)

/-! ## What a task is handed, and what it hands back -/

/-- Chunk `k` of subcore `s` of SparseCore `c` before the task: the table's block and the result's, as launched. -/
abbrev inCh (d : Dev nD) (c s k : ℕ) : sProp 𝕄 :=
  iprop((eLoc d ↦[eSetN (16 * s + 8 * c + k)]{fullShare} m (eLoc d)) ∗ oLoc d ↦[oSetN (16 * s + 8 * c + k)]{fullShare} m (oLoc d))
/-- The same after it: the result's block holds the table's rows. -/
abbrev outCh (d : Dev nD) (c s k : ℕ) : sProp 𝕄 :=
  iprop((eLoc d ↦[eSetN (16 * s + 8 * c + k)]{fullShare} m (eLoc d)) ∗ oLoc d ↦[oSetN (16 * s + 8 * c + k)]{fullShare} Cert.Spec.lift (m (eLoc d)))
/-- Subcore `s`'s two slots of SparseCore `c`'s shared memory, at whatever they hold. -/
abbrev shSlots (d : Dev nD) (c : Fin τ.nSC) (s : ℕ) : sProp 𝕄 :=
  iprop((∃ f, shLoc d c ↦[shSetN s 0]{fullShare} f) ∗ ∃ f, shLoc d c ↦[shSetN s 1]{fullShare} f)

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

section Tile

variable (d : Dev nD) (L : grid0.Coords)

/-- A vector subcore's scoped semaphores at zero: its eight transfer semaphores, and the rest. -/
theorem ownSems0_V :
    (ownSems0 (V d (cV L) (jV L)) : sProp 𝕄)
      = iprop(semVal (V d (cV L) (jV L), SemLoc.dma (0 : DmaSem sig)) 0
          ∗ semVal (V d (cV L) (jV L), SemLoc.dma (1 : DmaSem sig)) 0
          ∗ semVal (V d (cV L) (jV L), SemLoc.dma (2 : DmaSem sig)) 0
          ∗ semVal (V d (cV L) (jV L), SemLoc.dma (3 : DmaSem sig)) 0
          ∗ semVal (V d (cV L) (jV L), SemLoc.dma (4 : DmaSem sig)) 0
          ∗ semVal (V d (cV L) (jV L), SemLoc.dma (5 : DmaSem sig)) 0
          ∗ semVal (V d (cV L) (jV L), SemLoc.dma (6 : DmaSem sig)) 0
          ∗ semVal (V d (cV L) (jV L), SemLoc.dma (7 : DmaSem sig)) 0
          ∗ bigSep (((((((((ownCells (V d (cV L) (jV L))).erase (V d (cV L) (jV L), SemLoc.dma (0 : DmaSem sig))).erase (V d (cV L) (jV L), SemLoc.dma (1 : DmaSem sig))).erase (V d (cV L) (jV L), SemLoc.dma (2 : DmaSem sig))).erase (V d (cV L) (jV L), SemLoc.dma (3 : DmaSem sig))).erase (V d (cV L) (jV L), SemLoc.dma (4 : DmaSem sig))).erase (V d (cV L) (jV L), SemLoc.dma (5 : DmaSem sig))).erase (V d (cV L) (jV L), SemLoc.dma (6 : DmaSem sig))).erase (V d (cV L) (jV L), SemLoc.dma (7 : DmaSem sig))) fun g => semVal g 0) := by
  unfold SparseCore.Cfg.ownSems0
  rw [SparseCore.bigSep_erase' ((mem_ownCells (g := (V d (cV L) (jV L), SemLoc.dma (0 : DmaSem sig)))).mpr ⟨rfl, by show (SemLoc.dma (0 : DmaSem sig) : SemLoc sig).isScoped .scVector = true; decide⟩),
    SparseCore.bigSep_erase' (Finset.mem_erase.mpr ⟨(fun e => absurd (SemLoc.dma.inj (Prod.mk.inj e).2) (by decide) : ((V d (cV L) (jV L), SemLoc.dma (1 : DmaSem sig)) : GSem nD τ sig) ≠ (V d (cV L) (jV L), SemLoc.dma (0 : DmaSem sig))), ((mem_ownCells (g := (V d (cV L) (jV L), SemLoc.dma (1 : DmaSem sig)))).mpr ⟨rfl, by show (SemLoc.dma (1 : DmaSem sig) : SemLoc sig).isScoped .scVector = true; decide⟩)⟩),
    SparseCore.bigSep_erase' (Finset.mem_erase.mpr ⟨(fun e => absurd (SemLoc.dma.inj (Prod.mk.inj e).2) (by decide) : ((V d (cV L) (jV L), SemLoc.dma (2 : DmaSem sig)) : GSem nD τ sig) ≠ (V d (cV L) (jV L), SemLoc.dma (1 : DmaSem sig))), (Finset.mem_erase.mpr ⟨(fun e => absurd (SemLoc.dma.inj (Prod.mk.inj e).2) (by decide) : ((V d (cV L) (jV L), SemLoc.dma (2 : DmaSem sig)) : GSem nD τ sig) ≠ (V d (cV L) (jV L), SemLoc.dma (0 : DmaSem sig))), ((mem_ownCells (g := (V d (cV L) (jV L), SemLoc.dma (2 : DmaSem sig)))).mpr ⟨rfl, by show (SemLoc.dma (2 : DmaSem sig) : SemLoc sig).isScoped .scVector = true; decide⟩)⟩)⟩),
    SparseCore.bigSep_erase' (Finset.mem_erase.mpr ⟨(fun e => absurd (SemLoc.dma.inj (Prod.mk.inj e).2) (by decide) : ((V d (cV L) (jV L), SemLoc.dma (3 : DmaSem sig)) : GSem nD τ sig) ≠ (V d (cV L) (jV L), SemLoc.dma (2 : DmaSem sig))), (Finset.mem_erase.mpr ⟨(fun e => absurd (SemLoc.dma.inj (Prod.mk.inj e).2) (by decide) : ((V d (cV L) (jV L), SemLoc.dma (3 : DmaSem sig)) : GSem nD τ sig) ≠ (V d (cV L) (jV L), SemLoc.dma (1 : DmaSem sig))), (Finset.mem_erase.mpr ⟨(fun e => absurd (SemLoc.dma.inj (Prod.mk.inj e).2) (by decide) : ((V d (cV L) (jV L), SemLoc.dma (3 : DmaSem sig)) : GSem nD τ sig) ≠ (V d (cV L) (jV L), SemLoc.dma (0 : DmaSem sig))), ((mem_ownCells (g := (V d (cV L) (jV L), SemLoc.dma (3 : DmaSem sig)))).mpr ⟨rfl, by show (SemLoc.dma (3 : DmaSem sig) : SemLoc sig).isScoped .scVector = true; decide⟩)⟩)⟩)⟩),
    SparseCore.bigSep_erase' (Finset.mem_erase.mpr ⟨(fun e => absurd (SemLoc.dma.inj (Prod.mk.inj e).2) (by decide) : ((V d (cV L) (jV L), SemLoc.dma (4 : DmaSem sig)) : GSem nD τ sig) ≠ (V d (cV L) (jV L), SemLoc.dma (3 : DmaSem sig))), (Finset.mem_erase.mpr ⟨(fun e => absurd (SemLoc.dma.inj (Prod.mk.inj e).2) (by decide) : ((V d (cV L) (jV L), SemLoc.dma (4 : DmaSem sig)) : GSem nD τ sig) ≠ (V d (cV L) (jV L), SemLoc.dma (2 : DmaSem sig))), (Finset.mem_erase.mpr ⟨(fun e => absurd (SemLoc.dma.inj (Prod.mk.inj e).2) (by decide) : ((V d (cV L) (jV L), SemLoc.dma (4 : DmaSem sig)) : GSem nD τ sig) ≠ (V d (cV L) (jV L), SemLoc.dma (1 : DmaSem sig))), (Finset.mem_erase.mpr ⟨(fun e => absurd (SemLoc.dma.inj (Prod.mk.inj e).2) (by decide) : ((V d (cV L) (jV L), SemLoc.dma (4 : DmaSem sig)) : GSem nD τ sig) ≠ (V d (cV L) (jV L), SemLoc.dma (0 : DmaSem sig))), ((mem_ownCells (g := (V d (cV L) (jV L), SemLoc.dma (4 : DmaSem sig)))).mpr ⟨rfl, by show (SemLoc.dma (4 : DmaSem sig) : SemLoc sig).isScoped .scVector = true; decide⟩)⟩)⟩)⟩)⟩),
    SparseCore.bigSep_erase' (Finset.mem_erase.mpr ⟨(fun e => absurd (SemLoc.dma.inj (Prod.mk.inj e).2) (by decide) : ((V d (cV L) (jV L), SemLoc.dma (5 : DmaSem sig)) : GSem nD τ sig) ≠ (V d (cV L) (jV L), SemLoc.dma (4 : DmaSem sig))), (Finset.mem_erase.mpr ⟨(fun e => absurd (SemLoc.dma.inj (Prod.mk.inj e).2) (by decide) : ((V d (cV L) (jV L), SemLoc.dma (5 : DmaSem sig)) : GSem nD τ sig) ≠ (V d (cV L) (jV L), SemLoc.dma (3 : DmaSem sig))), (Finset.mem_erase.mpr ⟨(fun e => absurd (SemLoc.dma.inj (Prod.mk.inj e).2) (by decide) : ((V d (cV L) (jV L), SemLoc.dma (5 : DmaSem sig)) : GSem nD τ sig) ≠ (V d (cV L) (jV L), SemLoc.dma (2 : DmaSem sig))), (Finset.mem_erase.mpr ⟨(fun e => absurd (SemLoc.dma.inj (Prod.mk.inj e).2) (by decide) : ((V d (cV L) (jV L), SemLoc.dma (5 : DmaSem sig)) : GSem nD τ sig) ≠ (V d (cV L) (jV L), SemLoc.dma (1 : DmaSem sig))), (Finset.mem_erase.mpr ⟨(fun e => absurd (SemLoc.dma.inj (Prod.mk.inj e).2) (by decide) : ((V d (cV L) (jV L), SemLoc.dma (5 : DmaSem sig)) : GSem nD τ sig) ≠ (V d (cV L) (jV L), SemLoc.dma (0 : DmaSem sig))), ((mem_ownCells (g := (V d (cV L) (jV L), SemLoc.dma (5 : DmaSem sig)))).mpr ⟨rfl, by show (SemLoc.dma (5 : DmaSem sig) : SemLoc sig).isScoped .scVector = true; decide⟩)⟩)⟩)⟩)⟩)⟩),
    SparseCore.bigSep_erase' (Finset.mem_erase.mpr ⟨(fun e => absurd (SemLoc.dma.inj (Prod.mk.inj e).2) (by decide) : ((V d (cV L) (jV L), SemLoc.dma (6 : DmaSem sig)) : GSem nD τ sig) ≠ (V d (cV L) (jV L), SemLoc.dma (5 : DmaSem sig))), (Finset.mem_erase.mpr ⟨(fun e => absurd (SemLoc.dma.inj (Prod.mk.inj e).2) (by decide) : ((V d (cV L) (jV L), SemLoc.dma (6 : DmaSem sig)) : GSem nD τ sig) ≠ (V d (cV L) (jV L), SemLoc.dma (4 : DmaSem sig))), (Finset.mem_erase.mpr ⟨(fun e => absurd (SemLoc.dma.inj (Prod.mk.inj e).2) (by decide) : ((V d (cV L) (jV L), SemLoc.dma (6 : DmaSem sig)) : GSem nD τ sig) ≠ (V d (cV L) (jV L), SemLoc.dma (3 : DmaSem sig))), (Finset.mem_erase.mpr ⟨(fun e => absurd (SemLoc.dma.inj (Prod.mk.inj e).2) (by decide) : ((V d (cV L) (jV L), SemLoc.dma (6 : DmaSem sig)) : GSem nD τ sig) ≠ (V d (cV L) (jV L), SemLoc.dma (2 : DmaSem sig))), (Finset.mem_erase.mpr ⟨(fun e => absurd (SemLoc.dma.inj (Prod.mk.inj e).2) (by decide) : ((V d (cV L) (jV L), SemLoc.dma (6 : DmaSem sig)) : GSem nD τ sig) ≠ (V d (cV L) (jV L), SemLoc.dma (1 : DmaSem sig))), (Finset.mem_erase.mpr ⟨(fun e => absurd (SemLoc.dma.inj (Prod.mk.inj e).2) (by decide) : ((V d (cV L) (jV L), SemLoc.dma (6 : DmaSem sig)) : GSem nD τ sig) ≠ (V d (cV L) (jV L), SemLoc.dma (0 : DmaSem sig))), ((mem_ownCells (g := (V d (cV L) (jV L), SemLoc.dma (6 : DmaSem sig)))).mpr ⟨rfl, by show (SemLoc.dma (6 : DmaSem sig) : SemLoc sig).isScoped .scVector = true; decide⟩)⟩)⟩)⟩)⟩)⟩)⟩),
    SparseCore.bigSep_erase' (Finset.mem_erase.mpr ⟨(fun e => absurd (SemLoc.dma.inj (Prod.mk.inj e).2) (by decide) : ((V d (cV L) (jV L), SemLoc.dma (7 : DmaSem sig)) : GSem nD τ sig) ≠ (V d (cV L) (jV L), SemLoc.dma (6 : DmaSem sig))), (Finset.mem_erase.mpr ⟨(fun e => absurd (SemLoc.dma.inj (Prod.mk.inj e).2) (by decide) : ((V d (cV L) (jV L), SemLoc.dma (7 : DmaSem sig)) : GSem nD τ sig) ≠ (V d (cV L) (jV L), SemLoc.dma (5 : DmaSem sig))), (Finset.mem_erase.mpr ⟨(fun e => absurd (SemLoc.dma.inj (Prod.mk.inj e).2) (by decide) : ((V d (cV L) (jV L), SemLoc.dma (7 : DmaSem sig)) : GSem nD τ sig) ≠ (V d (cV L) (jV L), SemLoc.dma (4 : DmaSem sig))), (Finset.mem_erase.mpr ⟨(fun e => absurd (SemLoc.dma.inj (Prod.mk.inj e).2) (by decide) : ((V d (cV L) (jV L), SemLoc.dma (7 : DmaSem sig)) : GSem nD τ sig) ≠ (V d (cV L) (jV L), SemLoc.dma (3 : DmaSem sig))), (Finset.mem_erase.mpr ⟨(fun e => absurd (SemLoc.dma.inj (Prod.mk.inj e).2) (by decide) : ((V d (cV L) (jV L), SemLoc.dma (7 : DmaSem sig)) : GSem nD τ sig) ≠ (V d (cV L) (jV L), SemLoc.dma (2 : DmaSem sig))), (Finset.mem_erase.mpr ⟨(fun e => absurd (SemLoc.dma.inj (Prod.mk.inj e).2) (by decide) : ((V d (cV L) (jV L), SemLoc.dma (7 : DmaSem sig)) : GSem nD τ sig) ≠ (V d (cV L) (jV L), SemLoc.dma (1 : DmaSem sig))), (Finset.mem_erase.mpr ⟨(fun e => absurd (SemLoc.dma.inj (Prod.mk.inj e).2) (by decide) : ((V d (cV L) (jV L), SemLoc.dma (7 : DmaSem sig)) : GSem nD τ sig) ≠ (V d (cV L) (jV L), SemLoc.dma (0 : DmaSem sig))), ((mem_ownCells (g := (V d (cV L) (jV L), SemLoc.dma (7 : DmaSem sig)))).mpr ⟨rfl, by show (SemLoc.dma (7 : DmaSem sig) : SemLoc sig).isScoped .scVector = true; decide⟩)⟩)⟩)⟩)⟩)⟩)⟩)⟩)]

/-- Its vector memory is among its own buffers: it is it, at some contents, and the rest. -/
theorem ownBufs_V :
    (ownBufs (V d (cV L) (jV L)) : sProp 𝕄)
      = iprop((∃ f, tLoc d L ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L)) (b := (Proc.scVector (cV L) (jV L)).devRef cc0_scratch0) rfl)

variable [FloatOps F]

/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp
        ∗ ((bigSep Finset.univ fun k : Fin 8 => inCh m d (L 0).val (L 1).val k.val) ∗ shSlots d (cV L) (L 1).val)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_copy L eV (Memref.isWhole_whole _) oV (Memref.isWhole_whole _) tV (Memref.isWhole_whole _) sV (Memref.isWhole_whole _)
            cc0_scratch2 cc0_scratch3 cc0_scratch4 cc0_scratch5)
          fun _ => iprop(((bigSep Finset.univ fun k : Fin 8 => outCh m d (L 0).val (L 1).val k.val) ∗ shSlots d (cV L) (L 1).val)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_sc_copy_eq_skeleton]; unfold cc0_sc_copy_skel
  rw [(K (F := F)).scopedBufs_V hF d (cV L) (jV L), SparseCore.Cfg.scopedSems0_V (Val := Elt F) d (cV L) (jV L), ownSems0_V, ownBufs_V]
  rw [bigSep_fin8, bigSep_fin8]
  iintro ⟨#Hlv, -, ⟨⟨⟨He0, Ho0⟩, ⟨He1, Ho1⟩, ⟨He2, Ho2⟩, ⟨He3, Ho3⟩, ⟨He4, Ho4⟩, ⟨He5, Ho5⟩, ⟨He6, Ho6⟩, ⟨He7, Ho7⟩⟩, ⟨%fs0, Hs0⟩, ⟨%fs1, Hs1⟩⟩, ⟨⟨%ft, Ht⟩, Hbufs⟩, ⟨Hc0, Hc1, Hc2, Hc3, Hc4, Hc5, Hc6, Hc7, Hsems⟩, HO⟩
  ihave Hmw := ((K (F := F)).mayWaits_none (thr := V d (cV L) (jV L)) hO) $$ Hlv
  ihave He0' := (Entails.of_eq (pts_eCh0 (F := F) d L _).symm) $$ He0
  ihave Ho0' := (Entails.of_eq (pts_oCh0 (F := F) d L _).symm) $$ Ho0
  ihave He1' := (Entails.of_eq (pts_eCh1 (F := F) d L _).symm) $$ He1
  ihave Ho1' := (Entails.of_eq (pts_oCh1 (F := F) d L _).symm) $$ Ho1
  ihave He2' := (Entails.of_eq (pts_eCh2 (F := F) d L _).symm) $$ He2
  ihave Ho2' := (Entails.of_eq (pts_oCh2 (F := F) d L _).symm) $$ Ho2
  ihave He3' := (Entails.of_eq (pts_eCh3 (F := F) d L _).symm) $$ He3
  ihave Ho3' := (Entails.of_eq (pts_oCh3 (F := F) d L _).symm) $$ Ho3
  ihave He4' := (Entails.of_eq (pts_eCh4 (F := F) d L _).symm) $$ He4
  ihave Ho4' := (Entails.of_eq (pts_oCh4 (F := F) d L _).symm) $$ Ho4
  ihave He5' := (Entails.of_eq (pts_eCh5 (F := F) d L _).symm) $$ He5
  ihave Ho5' := (Entails.of_eq (pts_oCh5 (F := F) d L _).symm) $$ Ho5
  ihave He6' := (Entails.of_eq (pts_eCh6 (F := F) d L _).symm) $$ He6
  ihave Ho6' := (Entails.of_eq (pts_oCh6 (F := F) d L _).symm) $$ Ho6
  ihave He7' := (Entails.of_eq (pts_eCh7 (F := F) d L _).symm) $$ He7
  ihave Ho7' := (Entails.of_eq (pts_oCh7 (F := F) d L _).symm) $$ Ho7
  ihave Ht' := (Entails.of_eq (tPts_halves (F := F) d L ft)) $$ Ht
  icases Ht' with ⟨Ht0, Ht1⟩
  ihave Ht0' := (Entails.of_eq (pts_tSl0 (F := F) d L _).symm) $$ Ht0
  ihave Ht1' := (Entails.of_eq (pts_tSl1 (F := F) d L _).symm) $$ Ht1
  ihave Hs0' := (Entails.of_eq (pts_sSl0 (F := F) d L _).symm) $$ Hs0
  ihave Hs1' := (Entails.of_eq (pts_sSl1 (F := F) d L _).symm) $$ Hs1
  sl_exec
  sl_step
  have hP0 : tile_body.sl.dma0_4 m d L ft = (eCh L 0#32 (k0_off1_inb L 0)).view.read (Elt F) (m (eLoc d)) := by
    delta tile_body.sl.dma0_4 tile_body.sl.dma0; exact read_writes_whole_cons _ _ _ _
  have hP1 : tile_body.sl.dma0_5 m d L fs0 = (eCh L 32#32 (k0_off1_inb L 1)).view.read (Elt F) (m (eLoc d)) := by
    delta tile_body.sl.dma0_5 tile_body.sl.dma0_1; exact read_writes_whole_cons _ _ _ _
  have hP2 : tile_body.sl.dma0_8 m d L ft = (eCh L 64#32 (k0_off1_inb L 2)).view.read (Elt F) (m (eLoc d)) := by
    delta tile_body.sl.dma0_8 tile_body.sl.dma0_2; exact read_writes_whole_cons _ _ _ _
  have hP3 : tile_body.sl.dma0_9 m d L fs1 = (eCh L 96#32 (k0_off1_inb L 3)).view.read (Elt F) (m (eLoc d)) := by
    delta tile_body.sl.dma0_9 tile_body.sl.dma0_3; exact read_writes_whole_cons _ _ _ _
  have hP4 : tile_body.sl.dma0_12 m d L ft = (eCh L 128#32 (k0_off1_inb L 4)).view.read (Elt F) (m (eLoc d)) := by
    delta tile_body.sl.dma0_12 tile_body.sl.dma0_6; exact read_writes_whole_cons _ _ _ _
  have hP5 : tile_body.sl.dma0_13 m d L fs0 = (eCh L 160#32 (k0_off1_inb L 5)).view.read (Elt F) (m (eLoc d)) := by
    delta tile_body.sl.dma0_13 tile_body.sl.dma0_7; exact read_writes_whole_cons _ _ _ _
  have hP6 : tile_body.sl.dma0_14 m d L ft = (eCh L 192#32 (k0_off1_inb L 6)).view.read (Elt F) (m (eLoc d)) := by
    delta tile_body.sl.dma0_14 tile_body.sl.dma0_10; exact read_writes_whole_cons _ _ _ _
  have hP7 : tile_body.sl.dma0_15 m d L fs1 = (eCh L 224#32 (k0_off1_inb L 7)).view.read (Elt F) (m (eLoc d)) := by
    delta tile_body.sl.dma0_15 tile_body.sl.dma0_11; exact read_writes_whole_cons _ _ _ _
  isplitl [He0' Ho0' He1' Ho1' He2' Ho2' He3' Ho3' He4' Ho4' He5' Ho5' He6' Ho6' He7' Ho7' Hs0' Hs1']
  · isplitl [He0' Ho0' He1' Ho1' He2' Ho2' He3' Ho3' He4' Ho4' He5' Ho5' He6' Ho6' He7' Ho7']
    · isplitl [He0' Ho0']
      · isplitl [He0']
        · iapply (Entails.of_eq (pts_eCh0 (F := F) d L _)); iexact He0'
        · iapply (Entails.of_eq (done_oCh0 (F := F) d L _ _ _ hP0)); iexact Ho0'
      isplitl [He1' Ho1']
      · isplitl [He1']
        · iapply (Entails.of_eq (pts_eCh1 (F := F) d L _)); iexact He1'
        · iapply (Entails.of_eq (done_oCh1 (F := F) d L _ _ _ hP1)); iexact Ho1'
      isplitl [He2' Ho2']
      · isplitl [He2']
        · iapply (Entails.of_eq (pts_eCh2 (F := F) d L _)); iexact He2'
        · iapply (Entails.of_eq (done_oCh2 (F := F) d L _ _ _ hP2)); iexact Ho2'
      isplitl [He3' Ho3']
      · isplitl [He3']
        · iapply (Entails.of_eq (pts_eCh3 (F := F) d L _)); iexact He3'
        · iapply (Entails.of_eq (done_oCh3 (F := F) d L _ _ _ hP3)); iexact Ho3'
      isplitl [He4' Ho4']
      · isplitl [He4']
        · iapply (Entails.of_eq (pts_eCh4 (F := F) d L _)); iexact He4'
        · iapply (Entails.of_eq (done_oCh4 (F := F) d L _ _ _ hP4)); iexact Ho4'
      isplitl [He5' Ho5']
      · isplitl [He5']
        · iapply (Entails.of_eq (pts_eCh5 (F := F) d L _)); iexact He5'
        · iapply (Entails.of_eq (done_oCh5 (F := F) d L _ _ _ hP5)); iexact Ho5'
      isplitl [He6' Ho6']
      · isplitl [He6']
        · iapply (Entails.of_eq (pts_eCh6 (F := F) d L _)); iexact He6'
        · iapply (Entails.of_eq (done_oCh6 (F := F) d L _ _ _ hP6)); iexact Ho6'
      isplitl [He7']
      · iapply (Entails.of_eq (pts_eCh7 (F := F) d L _)); iexact He7'
      · iapply (Entails.of_eq (done_oCh7 (F := F) d L _ _ _ hP7)); iexact Ho7'
    · isplitl [Hs0']
      · iexists _; iapply (Entails.of_eq (pts_sSl0 (F := F) d L _)); iexact Hs0'
      · iexists _; iapply (Entails.of_eq (pts_sSl1 (F := F) d L _)); iexact Hs1'
  isplitl [Ht0' Ht1' Hbufs]
  · isplitl [Ht0' Ht1']
    · iapply (tHalves_join (F := F) d L)
      isplitl [Ht0']
      · iexists _; iapply (Entails.of_eq (pts_tSl0 (F := F) d L _)); iexact Ht0'
      · iexists _; iapply (Entails.of_eq (pts_tSl1 (F := F) d L _)); iexact Ht1'
    · iexact Hbufs
  isplitl [Hc0 Hc1 Hc2 Hc3 Hc4 Hc5 Hc6 Hc7 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Ideal

end
-- ==== Proof.IdealLaunch.lean ====
/-
  The launch: every thread of the device at once.  The TensorCore hands each SparseCore its half of the blocks of the
  table and of the result; the SparseCore's sequencer deals each of its sixteen subcores its eight chunks and its two
  slots of the shared memory, and collects them again; the TensorCore gets the blocks back, every block of the result
  now holding the table's rows.  Nothing here depends on the order in which the thirty-two tasks run: their pieces
  are pairwise disjoint.
-/
import proofs.«210063_g2302102470798_cont_8to1_71_18_alg».proof.Proof.IdealBody

noncomputable section

namespace Cert.Proof.Ideal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- The call hands SparseCore `c` its blocks of the table and of the result and takes them back, the result's now the
    table's rows; the sequencer hands subcore `i` its eight chunks and its two slots of the shared memory. -/
def P : (K (F := F)).Pay (nD := nD) (Val := Elt F) (Name := ℕ) (U := UU) where
  st := fun _ d c => bigSep Finset.univ fun s : Fin 16 => bigSep Finset.univ fun k : Fin 8 => inCh m d c.val s.val k.val
  dn := fun _ d c => bigSep Finset.univ fun s : Fin 16 => bigSep Finset.univ fun k : Fin 8 => outCh m d c.val s.val k.val
  go := fun q d c i => iprop((bigSep Finset.univ fun k : Fin 8 => inCh m d c.val i.val k.val) ∗ shSlots d ((K (F := F)).core q c) i.val)
  td := fun q d c i => iprop((bigSep Finset.univ fun k : Fin 8 => outCh m d c.val i.val k.val) ∗ shSlots d ((K (F := F)).core q c) i.val)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligations -/

section Obl

variable [FloatOps F]

theorem defs₀_vector (c : Fin τ.nSC) (s : Fin τ.nSub) :
    defs₀ (F := F) (.scVector c s) 0 ()
      = SparseCore.onTile hcore0 hsub0 (fun c s => cc0_sc_copy (coordsV c s)
          eV (Memref.isWhole_whole _) oV (Memref.isWhole_whole _) tV (Memref.isWhole_whole _) sV (Memref.isWhole_whole _)
          cc0_scratch2 cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Obl

/-! ## The shared memory's slots split and join -/

theorem shSet_eq (p : Fin 16 × Fin 2) : shSet p = (shRect p.1 p.2).set := by
  show ((View.whole (cc0_scratch1 : Ref sig .scVector)).slice (shRect p.1 p.2)).set = _
  rw [View.set_slice]; exact Finset.map_refl

theorem sh_disjoint : ∀ p ∈ (Finset.univ : Finset (Fin 16 × Fin 2)), ∀ p' ∈ (Finset.univ : Finset (Fin 16 × Fin 2)), p ≠ p' → Disjoint (shSet p) (shSet p') := by
  intro p _ p' _ h
  rw [shSet_eq, shSet_eq]
  by_cases h1 : p.1 = p'.1
  · have h2 : p.2.val ≠ p'.2.val := fun e => h (Prod.ext h1 (Fin.ext e))
    refine Rect.unit_disjoint (1 : Fin 4) ?_
    simp; omega
  · have h2 : p.1.val ≠ p'.1.val := fun e => h1 (Fin.ext e)
    refine Rect.unit_disjoint (0 : Fin 4) ?_
    simp; omega

theorem sh_cover : (Finset.univ : Finset (Fin 16 × Fin 2)).biUnion shSet = Finset.univ := by
  ext i
  simp only [Finset.mem_biUnion, Finset.mem_univ, true_and, iff_true]
  refine ⟨(⟨(i 0).val, (i 0).isLt⟩, ⟨(i 1).val, (i 1).isLt⟩), ?_⟩
  rw [shSet_eq, Rect.mem_set_unit]
  intro a
  match a with
  | 0 => simp
  | 1 => simp
  | 2 => exact ⟨Nat.zero_le _, by have := (i 2).isLt; simpa using this⟩
  | 3 => exact ⟨Nat.zero_le _, by have := (i 3).isLt; simpa using this⟩

theorem shPts_slots (d : Dev nD) (c : Fin τ.nSC) (f : Buf (Elt F) (shLoc d c)) :
    (shLoc d c ↦{fullShare} f : sProp 𝕄)
      = bigSep Finset.univ fun s : Fin 16 => iprop((shLoc d c ↦[shSetN s.val 0]{fullShare} f) ∗ shLoc d c ↦[shSetN s.val 1]{fullShare} f) := by
  rw [show (bigSep Finset.univ fun s : Fin 16 => (iprop((shLoc d c ↦[shSetN s.val 0]{fullShare} f) ∗ shLoc d c ↦[shSetN s.val 1]{fullShare} f) : sProp 𝕄))
      = bigSep Finset.univ fun s : Fin 16 => bigSep Finset.univ fun j : Fin 2 => shLoc d c ↦[shSet (s, j)]{fullShare} f from
    bigSep_congr fun s _ => by rw [bigSep_univ_two, shSetN_lt s.isLt (by decide), shSetN_lt s.isLt (by decide)]; rfl]
  rw [← bigSep_univ_prod (fun p : Fin 16 × Fin 2 => (shLoc d c ↦[shSet p]{fullShare} f : sProp 𝕄)),
    ← pointsTo_biUnion Finset.univ (ℓ := shLoc d c) shSet sh_disjoint, sh_cover]; try rfl

theorem shSlots_split (d : Dev nD) (c : Fin τ.nSC) :
    (iprop(∃ f, shLoc d c ↦{fullShare} f) : sProp 𝕄) ⊢ bigSep Finset.univ fun s : Fin 16 => shSlots (F := F) d c s.val := by
  iintro ⟨%f, H⟩
  ihave H' := (Entails.of_eq (shPts_slots d c f)) $$ H
  ihave H'' := (SparseCore.ent (bigSep_mono (s := (Finset.univ : Finset (Fin 16)))
    (Φ := fun s : Fin 16 => (iprop((shLoc d c ↦[shSetN s.val 0]{fullShare} f) ∗ shLoc d c ↦[shSetN s.val 1]{fullShare} f) : sProp 𝕄))
    (Ψ := fun s : Fin 16 => shSlots (F := F) d c s.val) fun s _ =>
      (show (iprop((shLoc d c ↦[shSetN s.val 0]{fullShare} f) ∗ shLoc d c ↦[shSetN s.val 1]{fullShare} f) : sProp 𝕄) ⊢ shSlots (F := F) d c s.val from by
        iintro ⟨H0, H1⟩
        isplitl [H0]
        · iexists _; iexact H0
        · iexists _; iexact H1))) $$ H'
  iexact H''

theorem shSlots_join [FloatOps F] (d : Dev nD) (c : Fin τ.nSC) :
    (bigSep Finset.univ fun s : Fin 16 => shSlots (F := F) d c s.val) ⊢ (iprop(∃ f, shLoc d c ↦{fullShare} f) : sProp 𝕄) := by
  rw [show (bigSep Finset.univ fun s : Fin 16 => shSlots (F := F) d c s.val)
      = bigSep Finset.univ fun p : Fin 16 × Fin 2 => (iprop(∃ f, shLoc d c ↦[shSet p]{fullShare} f) : sProp 𝕄) from by
    rw [bigSep_univ_prod]
    exact bigSep_congr fun s _ => by
      rw [bigSep_univ_two]
      show (iprop((∃ f, shLoc d c ↦[shSetN s.val 0]{fullShare} f) ∗ ∃ f, shLoc d c ↦[shSetN s.val 1]{fullShare} f) : sProp 𝕄) = _
      rw [shSetN_lt s.isLt (by decide), shSetN_lt s.isLt (by decide)]; rfl]
  refine (bigSep_exists_pi Finset.univ (fun p (f : Buf (Elt F) (shLoc d c)) => (shLoc d c ↦[shSet p]{fullShare} f : sProp 𝕄))).trans ?_
  iintro ⟨%fs, H⟩
  ihave H' := (pointsTo_biUnion_join Finset.univ shSet fs (fs (0, 0)) sh_disjoint) $$ H
  icases H' with ⟨%g, -, Hg⟩
  rw [sh_cover]
  iexists g; iexact Hg

/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit [FloatOps F] : (K (F := F)).VecSplit (P m) 0 := by
  intro d c
  show iprop((bigSep Finset.univ fun s : Fin 16 => bigSep Finset.univ fun k : Fin 8 => inCh m d c.val s.val k.val) ∗ ownBufs (S d ((K (F := F)).core 0 c)))
    ⊢ |={Set.univ}=> iprop((bigSep Finset.univ fun i : Fin 16 => iprop((bigSep Finset.univ fun k : Fin 8 => inCh m d c.val i.val k.val) ∗ shSlots d ((K (F := F)).core 0 c) i.val))
      ∗ ((bigSep Finset.univ fun i : Fin 16 => iprop((bigSep Finset.univ fun k : Fin 8 => outCh m d c.val i.val k.val) ∗ shSlots d ((K (F := F)).core 0 c) i.val))
        -∗ iprop((bigSep Finset.univ fun s : Fin 16 => bigSep Finset.univ fun k : Fin 8 => outCh m d c.val s.val k.val) ∗ ownBufs (S d ((K (F := F)).core 0 c)))))
  rw [bigSep_sep' Finset.univ (fun i : Fin 16 => bigSep Finset.univ fun k : Fin 8 => inCh m d c.val i.val k.val) (fun i : Fin 16 => shSlots d ((K (F := F)).core 0 c) i.val),
    bigSep_sep' Finset.univ (fun i : Fin 16 => bigSep Finset.univ fun k : Fin 8 => outCh m d c.val i.val k.val) (fun i : Fin 16 => shSlots d ((K (F := F)).core 0 c) i.val), ownBufs_S]
  iintro ⟨Hin, Hsh, Hrest⟩; imodintro
  isplitl [Hin Hsh]
  · isplitl [Hin]; · iexact Hin
    iapply (shSlots_split d _); iexact Hsh
  iintro ⟨Hout, Hsh⟩
  isplitl [Hout]; · iexact Hout
  isplitl [Hsh]; · iapply (shSlots_join d _); iexact Hsh
  iexact Hrest

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ (eLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes for the two SparseCores is the table and the result whole, -/
theorem st0_eq (d : Dev nD) : (bigSep Finset.univ fun c : Fin ((K (F := F)).nCore 0) => (P m).st 0 d c)
    = iprop((eLoc d ↦{fullShare} m (eLoc d)) ∗ oLoc d ↦{fullShare} m (oLoc d)) := by
  show (bigSep Finset.univ fun c : Fin 2 => bigSep Finset.univ fun s : Fin 16 => bigSep Finset.univ fun k : Fin 8 => inCh m d c.val s.val k.val) = _
  rw [ePts_blocks, oPts_blocks]
  simp only [bigSep_sep']
/-- and what it hands back is the table whole and the result whole, the table's rows under the leading unit axis. -/
theorem dn0_eq (d : Dev nD) : (bigSep Finset.univ fun c : Fin ((K (F := F)).nCore 0) => (P m).dn 0 d c)
    = iprop((eLoc d ↦{fullShare} m (eLoc d)) ∗ oLoc d ↦{fullShare} Cert.Spec.lift (m (eLoc d))) := by
  show (bigSep Finset.univ fun c : Fin 2 => bigSep Finset.univ fun s : Fin 16 => bigSep Finset.univ fun k : Fin 8 => outCh m d c.val s.val k.val) = _
  rw [ePts_blocks, oPts_blocks]
  simp only [bigSep_sep']

/-- What @main leaves the claim: both arguments at their launch contents, the result at the table's rows. -/
abbrev FIN (d : Dev nD) : sProp 𝕄 :=
  iprop((xLoc d ↦{fullShare} m (xLoc d)) ∗ (eLoc d ↦{fullShare} m (eLoc d)) ∗ oLoc d ↦{fullShare} Cert.Spec.lift (m (eLoc d)))

section Main

variable [FloatOps F]

/-- @main on device `d`'s TensorCore: the one call, from the table and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, He, Ho⟩, -, -⟩, -⟩
  iapply ((K (F := F)).wp_run (D (F := F)) 𝒱 (EH := EH) (P := P m) κ d 0) $$ [Hst Hx He Ho]
  isplitr; · iexact Hctx
  isplitl [Hst]; · iexact Hst
  isplitl [He Ho]
  · rw [st0_eq]
    isplitl [He]; · iexact He
    iexact Ho
  iintro ⟨Hst, Hdn⟩
  ihave Hdn' := (Entails.of_eq (dn0_eq m d)) $$ Hdn
  icases Hdn' with ⟨He, Ho⟩
  imodintro
  isplitl [Hst]; · iexact Hst
  isplitl [Hx]; · iexact Hx
  isplitl [He]; · iexact He
  iexact Ho

end Main

def fq (d : Dev nD) (s' : Phys nD τ sig (Elt F)) : Prop :=
  s'.mem.mem (xLoc d) = m (xLoc d) ∧ s'.mem.mem (eLoc d) = m (eLoc d) ∧ s'.mem.mem (oLoc d) = Cert.Spec.lift (m (eLoc d))

theorem hfin (d : Dev nD) (s' : Phys nD τ sig (Elt F)) : iprop(FIN m d ∗ SI s') ⊢ (⌜fq m d s'⌝ : sProp 𝕄) := by
  iintro ⟨⟨Hx, He, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (SI_pointsTo_agree (st := s') (ℓ := oLoc d) (I := Finset.univ) (q := fullShare) (f := Cert.Spec.lift (m (eLoc d)))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- Both arguments end as launched, and the result is the table's rows under the leading unit axis. -/
def QC : PUnit × MemSt nD τ sig (Elt F) → Prop := fun r => ∀ c : Dev nD,
  r.2.mem (xLoc c) = m (xLoc c) ∧ r.2.mem (eLoc c) = m (eLoc c) ∧ r.2.mem (oLoc c) = Cert.Spec.lift (m (eLoc c))

theorem run_main [FloatOps F] [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => vecSplit m)
    m ρ main (fun _ => iprop(emp)) (FIN m) (u₀ (F := F)) (sep_elim_left.trans (hu₀ m)) (hmain m ρ) (fq m) (hfin m) (QC m) (fun _ h => h)

end Cert.Proof.Ideal

end
-- ==== Proof.RefRun.lean ====
/-
  The reference program's @main as the list of its host operations, the two outlined functions
  (the row lookup and the selection it calls) written out at their call sites over the buffers of
  those calls, and the run read back: every weakly fair execution terminates with the result buffer
  at the operations' composed term of the table argument, both arguments unchanged.
-/
import proofs.«210063_g2302102470798_cont_8to1_71_18_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls unfolded: the row numbers 0 … 8191; the lookup's
    wrap of a negative row number (compare with zero, add the table's height, select), the row
    number as a one-column index table, the test that it lies in 0 … 8191 (two comparisons, their
    conjunction, folded over the single column), the gather of the rows, the test broadcast over the
    columns, the not-a-number fill, the select between the gathered rows and the fill; then the
    leading unit axis. -/
abbrev ops : List (HloOp τ sig (Elt F)) :=
  [ nullary main_v0 (iotaInDim S8192 32 0),
    TRef.nullary main_call0.c (constantI S_ 32 0#32),
    TRef.unary main_call0.c main_call0.v0 (broadcastInDim S8192 ![] bcast_S_S8192),
    TRef.binary (.of main_v0) main_call0.v0 main_call0.v1 (cmpi .slt),
    TRef.nullary main_call0.c_0 (constantI S_ 32 8192#32),
    TRef.unary main_call0.c_0 main_call0.v2 (broadcastInDim S8192 ![] bcast_S_S8192),
    TRef.binary (.of main_v0) main_call0.v2 main_call0.v3 addi,
    TRef.ternary main_call0.v1 main_call0.v3 (.of main_v0) main_call0.call0.v0 select,
    TRef.unary main_call0.call0.v0 main_call0.v5 (broadcastInDim S8192x1 ![0] bcast_S8192_S8192x1_0),
    TRef.nullary main_call0.c_1 (constantI S1 32 8191#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S8192x1024_S8192x1_S8192x1024_1_0_n_n_0_1_11024 x i),
    TRef.unary main_call0.v12 main_call0.v14 (broadcastInDim S8192x1024 ![0] bcast_S8192_S8192x1024_0),
    TRef.nullary main_call0.cst (constant S_ .f32 0x7FC00000#32),
    TRef.unary main_call0.cst main_call0.v15 (broadcastInDim S8192x1024 ![] bcast_S_S8192x1024),
    TRef.ternary main_call0.v14 main_call0.v13 main_call0.v15 main_call0.v16 select,
    unary main_v1 main_v2 (broadcastInDim S1x8192x1024 ![1, 2] bcast_S8192x1024_S1x8192x1024_1_2 : (⟨S8192x1024, .f32⟩ : BufTy).Contents (Elt F) → (⟨S1x8192x1024, .f32⟩ : BufTy).Contents (Elt F)) ]

set_option maxRecDepth 1024 in
/-- @main is that straight line: the two functions' definitions unfolded at their calls, both sides
    are one chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub ..⟩

/-- At the compiled mesh, for any float values, from any memory with zero counters: every weakly
    fair execution of @main terminates, and every final state has each buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed term -/

/-- The row numbers 0, 1, …, 8191 as 32-bit words. -/
def pos : IVec S8192 32 := iotaInDim S8192 32 0

/-- The row numbers after the lookup's wrap of a negative one: the row number plus 8192 where it is
    negative (signed), else the row number. -/
def wrapped : IVec S8192 32 :=
  select (cmpi .slt pos (broadcastInDim S8192 ![] bcast_S_S8192 (constantI S_ 32 0#32)))
    (addi pos (broadcastInDim S8192 ![] bcast_S_S8192 (constantI S_ 32 8192#32))) pos

/-- The wrapped row numbers as a table of one-component start indices. -/
def starts : IVec S8192x1 32 := broadcastInDim S8192x1 ![0] bcast_S8192_S8192x1_0 wrapped

/-- Per row, whether its start index lies in 0 … 8191 (signed): the conjunction of the two
    comparisons, folded over the single component. -/
def inRange : IVec S8192 1 :=
  Host.reduce IntOp.andi
    (andi (cmpi .sge starts (broadcastInDim S8192x1 ![] bcast_S_S8192x1 (constantI S_ 32 0#32)))
      (cmpi .sle starts (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- The lookup's result: the gathered rows where the start index is in range, the not-a-number fill
    elsewhere. -/
def taken (table : (⟨S8192x1024, .f32⟩ : BufTy).Contents (Elt F)) : (⟨S8192x1024, .f32⟩ : BufTy).Contents (Elt F) :=
  select (broadcastInDim S8192x1024 ![0] bcast_S8192_S8192x1024_0 inRange)
    (Host.gather gather_S8192x1024_S8192x1_S8192x1024_1_0_n_n_0_1_11024 table starts)
    (broadcastInDim S8192x1024 ![] bcast_S_S8192x1024 (constant S_ .f32 0x7FC00000#32))

/-- @main's result as a term of the table argument: the lookup's result under a leading unit axis. -/
def out (table : (⟨S8192x1024, .f32⟩ : BufTy).Contents (Elt F)) : (⟨S1x8192x1024, .f32⟩ : BufTy).Contents (Elt F) :=
  broadcastInDim S1x8192x1024 ![1, 2] bcast_S8192x1024_S1x8192x1024_1_2 (taken table)

attribute [local irreducible] Host.reduce Host.gather in
set_option maxRecDepth 8192 in
/-- The fold at the result buffer is the composed term of the table's contents: the fold unrolled, each
    operation's result decides whether the buffer read is the one it writes, and the typed references'
    casts are the identity at these literal references. The gather and the reduction are kept folded
    meanwhile: the equation never looks inside them. -/
theorem out_eq (V : Valuation τ sig (Elt F)) :
    after ops V (main_v2 : DevRef τ sig) = out (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- On every device, for any float values, from any memory with zero counters: every weakly fair
    execution of @main terminates with the result at the composed term of the table argument and both
    arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = out (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq _),
      (h c main_arg0).trans (arg0_eq _),
      (h c main_arg1).trans (arg1_eq _)⟩)
    (run_main m ρ)

end Cert.ReferenceIdeal.RefRun

end
-- ==== Proof.RefValue.lean ====
/-
  The value of the reference's result, read at an index. The composed term of the run is the table's
  lookup at the row numbers 0, 1, …, 8191 under a leading unit axis. No row number is negative, so the
  lookup's wrap keeps it; it lies in 0 … 8191, so the range test holds at every row and the select
  keeps the gathered row; the gather at start index r reads row r. Hence entry (0, r, c) of the
  result is the table's entry (r, c).
-/
import proofs.«210063_g2302102470798_cont_8to1_71_18_alg».proof.Proof.RefRun
import proofs.«210063_g2302102470798_cont_8to1_71_18_alg».proof.Proof.Spec
import Idealize.ShloMosaic.Lib.ValueIdx
import Idealize.ShloMosaic.Lib.IdealHost
import Idealize.ShloMosaic.Lib.Pipeline.Value
import Idealize.ShloMosaic.PureOps.Reduce

noncomputable section

namespace Cert.ReferenceIdeal.RefValue

open Cert.ReferenceIdeal Cert.ReferenceIdeal.Gen Cert.ReferenceIdeal.RefRun Idealize.ShloMosaic Idealize.ShloMosaic.ValueIdx
open Idealize.ShloMosaic.TcCoe Idealize.SL.Sem

variable {F : FTy → Type} [FloatOps F]

/-! ## Words: a row number below 8192 as a signed 32-bit word -/

/-- A row number below 8192 read back signed from its 32-bit word is itself. -/
theorem toInt_row (r : Nat) (h : r < 8192) : (BitVec.ofNat 32 r).toInt = (r : Int) := by
  rw [BitVec.toInt_eq_toNat_cond, BitVec.toNat_ofNat]
  have : r % 2 ^ 32 = r := Nat.mod_eq_of_lt (by omega)
  rw [this]
  split
  · rfl
  · omega

/-- It is not negative … -/
theorem slt_zero_row (r : Nat) (h : r < 8192) : IntOp.cmpi .slt (BitVec.ofNat 32 r) 0#32 = 0#1 := by
  have h0 : (0#32 : BitVec 32).toInt = 0 := by decide
  have hn : ¬ ((r : Int) < 0) := by omega
  unfold IntOp.cmpi
  simp only [BitVec.slt, toInt_row r h, h0]
  rw [decide_eq_false hn]; rfl

/-- … so it is at least zero … -/
theorem sge_zero_row (r : Nat) (h : r < 8192) : IntOp.cmpi .sge (BitVec.ofNat 32 r) 0#32 = 1#1 := by
  have h0 : (0#32 : BitVec 32).toInt = 0 := by decide
  have hn : (0 : Int) ≤ (r : Int) := by omega
  unfold IntOp.cmpi
  simp only [BitVec.sle, toInt_row r h, h0]
  rw [decide_eq_true hn]; rfl

/-- … and at most 8191. -/
theorem sle_max_row (r : Nat) (h : r < 8192) : IntOp.cmpi .sle (BitVec.ofNat 32 r) 8191#32 = 1#1 := by
  have h0 : (8191#32 : BitVec 32).toInt = 8191 := by decide
  have hn : (r : Int) ≤ 8191 := by omega
  unfold IntOp.cmpi
  simp only [BitVec.sle, toInt_row r h, h0]
  rw [decide_eq_true hn]; rfl

/-! ## The index table -/

/-- The row numbers at a row. -/
theorem pos_apply (i : S8192.Idx) : pos i = BitVec.ofNat 32 (i 0).val := rfl

/-- No row number is negative, so the wrap keeps every one. -/
theorem wrapped_apply (i : S8192.Idx) : wrapped i = BitVec.ofNat 32 (i 0).val := by
  unfold wrapped
  rw [select_apply]
  have hc : cmpi .slt pos (broadcastInDim S8192 ![] bcast_S_S8192 (constantI S_ 32 0#32)) i = 0#1 := by
    show IntOp.cmpi .slt (pos i) (broadcastInDim S8192 ![] bcast_S_S8192 (constantI S_ 32 0#32) i) = 0#1
    rw [broadcastInDim_scalar_apply, pos_apply]
    exact slt_zero_row _ (i 0).isLt
  rw [hc, select_zero, pos_apply]

/-- The start index of row r is r. -/
theorem starts_apply (i : S8192x1.Idx) : starts i = BitVec.ofNat 32 (i 0).val := by
  unfold starts
  exact (broadcastInDim_apply ![0] bcast_S8192_S8192x1_0 wrapped i (ix1 (i 0)) (fun a => match a with | ⟨0, _⟩ => rfl)).trans
    (wrapped_apply _)

/-! ## The range test -/

/-- A fold of the one-bit conjunction from the bit 1 over elements that are all the bit 1 is the bit 1. -/
theorem fold_andi_one {ι : Type} [DecidableEq ι] (S : Finset ι) (g : ι → BitVec 1) (hg : ∀ i, g i = 1#1) :
    S.fold IntOp.andi 1#1 g = 1#1 := by
  induction S using Finset.induction_on with
  | empty => rfl
  | insert a S ha ih => rw [Finset.fold_insert ha, ih, hg]; rfl

/-- Every start index passes both comparisons. -/
theorem both_apply (i : S8192x1.Idx) :
    andi (cmpi .sge starts (broadcastInDim S8192x1 ![] bcast_S_S8192x1 (constantI S_ 32 0#32)))
      (cmpi .sle starts (broadcastInDim S8192x1 ![0, 1] bcast_S1x1_S8192x1_0_1
        (broadcastInDim S1x1 ![1] bcast_S1_S1x1_1 (constantI S1 32 8191#32)))) i = 1#1 := by
  show IntOp.andi (IntOp.cmpi .sge (starts i) (broadcastInDim S8192x1 ![] bcast_S_S8192x1 (constantI S_ 32 0#32) i))
      (IntOp.cmpi .sle (starts i) (broadcastInDim S8192x1 ![0, 1] bcast_S1x1_S8192x1_0_1
        (broadcastInDim S1x1 ![1] bcast_S1_S1x1_1 (constantI S1 32 8191#32)) i)) = 1#1
  have h2 : broadcastInDim S8192x1 ![0, 1] bcast_S1x1_S8192x1_0_1
        (broadcastInDim S1x1 ![1] bcast_S1_S1x1_1 (constantI S1 32 8191#32)) i = 8191#32 := rfl
  have h1 : broadcastInDim S8192x1 ![] bcast_S_S8192x1 (constantI S_ 32 0#32) i = 0#32 := rfl
  rw [h1, h2, starts_apply, sge_zero_row _ (i 0).isLt, sle_max_row _ (i 0).isLt]
  rfl

/-- So every row is in range. -/
theorem inRange_apply (i : S8192.Idx) : inRange i = 1#1 := by
  unfold inRange
  rw [Host.reduce_eq_fold]
  exact fold_andi_one _ _ both_apply

/-! ## The gather -/

local notation "gd" => gather_S8192x1024_S8192x1_S8192x1024_1_0_n_n_0_1_11024

/-- On the row axis the gather at row r reads row r: the start index r, clamped into 0 … 8191, is r; the row axis
    is collapsed, so there is no offset. -/
theorem operandIdx_row (r : Fin 8192) (c : Fin 1024) : ((gd).operandIdx (ix2 r c) starts 0).val = r.val := by
  have key : ∀ i : S8192x1.Idx, (BitVec.ofNat 32 (i 0).val).toInt = ((i 0).val : Int) := fun i => toInt_row _ (i 0).isLt
  show (gd).start (ix2 r c) starts 0 + (gd).batchCoord (ix2 r c) 0 + (gd).offCoord (ix2 r c) 0 = r.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  split
  · rw [starts_apply, key, Int.toNat_natCast]
    show min r.val (8192 - 1) = r.val
    have := r.isLt
    omega
  · rename_i hn
    exact absurd (List.mem_singleton.mpr rfl) hn

/-- On the column axis it reads column c: no start index names the axis, and the offset is c. -/
theorem operandIdx_col (r : Fin 8192) (c : Fin 1024) : ((gd).operandIdx (ix2 r c) starts 1).val = c.val := by
  show (gd).start (ix2 r c) starts 1 + (gd).batchCoord (ix2 r c) 1 + (gd).offCoord (ix2 r c) 1 = c.val
  have hs : (gd).start (ix2 r c) starts 1 = 0 := by
    unfold GatherDims.start
    split
    · rename_i ha
      exact absurd ha (by decide)
    · rfl
  have ho : (gd).offCoord (ix2 r c) 1 = c.val := by
    unfold GatherDims.offCoord
    split
    · rfl
    · rename_i hn
      exact absurd (by decide) hn
  rw [hs, ho, GatherDims.batchCoord_eq_zero _ _ _ List.not_mem_nil]
  omega

/-- The gather at row r, column c reads the table at row r, column c. -/
theorem gather_apply {α : Type} (table : S8192x1024.Idx → α) (r : Fin 8192) (c : Fin 1024) :
    Host.gather gd table starts (ix2 r c) = table (ix2 r c) := by
  unfold Host.gather
  congr 1
  funext a
  refine Fin.ext ?_
  match a with
  | ⟨0, _⟩ => exact operandIdx_row r c
  | ⟨1, _⟩ => exact operandIdx_col r c

/-! ## The lookup and the result -/

/-- The lookup's result at row r, column c is the table's entry there: the range test holds, so the select keeps
    the gathered row. -/
theorem taken_apply (table : (⟨S8192x1024, .f32⟩ : BufTy).Contents (Elt F)) (r : Fin 8192) (c : Fin 1024) :
    taken table (ix2 r c) = table (ix2 r c) := by
  unfold taken
  rw [select_apply]
  have hm : broadcastInDim S8192x1024 ![0] bcast_S8192_S8192x1024_0 inRange (ix2 r c) = 1#1 :=
    (broadcastInDim_apply ![0] bcast_S8192_S8192x1024_0 inRange (ix2 r c) (ix1 r)
      (fun a => match a with | ⟨0, _⟩ => rfl)).trans (inRange_apply _)
  rw [hm, select_one, gather_apply]

/-- The result at (0, r, c) is the table's entry (r, c). -/
theorem out_apply (table : (⟨S8192x1024, .f32⟩ : BufTy).Contents (Elt F)) (j : S1x8192x1024.Idx) :
    out table j = Cert.Spec.lift table j := by
  unfold out
  exact (broadcastInDim_apply ![1, 2] bcast_S8192x1024_S1x8192x1024_1_2 (taken table) j (ix2 (j 1) (j 2))
    (fun a => match a with | ⟨0, _⟩ => rfl | ⟨1, _⟩ => rfl)).trans (taken_apply table (j 1) (j 2))

/-- The composed term is the table under a leading unit axis. -/
theorem out_eq_lift (table : (⟨S8192x1024, .f32⟩ : BufTy).Contents (Elt F)) : out table = Cert.Spec.lift table :=
  funext fun j => out_apply table j

/-! ## The run, with the value -/

/-- On every device, from any memory with zero counters: every weakly fair execution of @main terminates with the
    result the table argument under a leading unit axis, and both arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = Cert.Spec.lift (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out_eq_lift _), (h c).2.1, (h c).2.2⟩)
    (RefRun.run_out m ρ)

end Cert.ReferenceIdeal.RefValue

end
-- ==== Proof.lean ====
/-
  The claim: a copy kernel against an identity gather.
  The kernel copies the 8192 × 1024 table into the result (shape 1 × 8192 × 1024) on the device's thirty-two vector
  subcores, each moving its 256 rows in eight chunks of thirty-two through on-chip buffers; the reference takes row
  `r` of the table for `r = 0, 1, …, 8191`, every index in range, and adds the leading unit axis.  Both end with
  `out (0, r, c) = table (r, c)`: no arithmetic is done on the values, so the two results agree on every extended real,
  finite or not, and the precondition is never opened.
  The kernel's programs (read at words and at extended reals) are run once, generically in the float instance: every
  weakly fair execution of the TensorCore, the two sequencers and the thirty-two subcores terminates without a fault,
  the arguments unchanged, the result the table's rows.  The idealization rewrote nothing, so what it preserves is
  trivially preserved.
-/
import proofs.«210063_g2302102470798_cont_8to1_71_18_alg».proof.Defs
import proofs.«210063_g2302102470798_cont_8to1_71_18_alg».proof.Proof.Gen.Kernel
import proofs.«210063_g2302102470798_cont_8to1_71_18_alg».proof.Proof.Gen.Kernel.Skeleton
import proofs.«210063_g2302102470798_cont_8to1_71_18_alg».proof.Proof.Gen.KernelIdeal
import proofs.«210063_g2302102470798_cont_8to1_71_18_alg».proof.Proof.Gen.KernelIdeal.Skeleton
import proofs.«210063_g2302102470798_cont_8to1_71_18_alg».proof.Proof.Gen.ReferenceIdeal
import proofs.«210063_g2302102470798_cont_8to1_71_18_alg».proof.Proof.Gen.Pre_finite_inputs
import proofs.«210063_g2302102470798_cont_8to1_71_18_alg».proof.Proof.BitsLaunch
import proofs.«210063_g2302102470798_cont_8to1_71_18_alg».proof.Proof.IdealLaunch
import proofs.«210063_g2302102470798_cont_8to1_71_18_alg».proof.Proof.RefValue
import Idealize.ShloMosaic.Adequacy
import Idealize.ShloMosaic.Init

noncomputable section

namespace Cert.Proof

open Idealize.ShloMosaic Idealize.SL.Sem

/-- The kernel read at words: it runs, and its arguments end unchanged. -/
theorem frame_Kernel : @Cert.frame_Kernel Cert.Kernel.Gen.facts Cert.Pre_finite_inputs.Gen.facts := fun m ρ _ =>
  (θ_run Cert.Kernel.defs _ _).mono (fun _ h c => ⟨(h c).1, (h c).2.1⟩) (Cert.Proof.Bits.run_main (F := Bits) m ρ)

/-- The kernel read at extended reals: the same. -/
theorem frame_KernelIdeal : @Cert.frame_KernelIdeal Cert.KernelIdeal.Gen.facts Cert.Pre_finite_inputs.Gen.facts := fun m ρ _ =>
  (θ_run Cert.KernelIdeal.defs _ _).mono (fun _ h c => ⟨(h c).1, (h c).2.1⟩) (Cert.Proof.Ideal.run_main (F := Ideal) m ρ)

/-- The reference runs, and its arguments end unchanged. -/
theorem frame_ReferenceIdeal : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.RefValue.run m ρ)

/-- Both programs end with the table's rows under the leading unit axis. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.lift (m ((c.tc : Thread Cert.KernelIdeal.nD Cert.KernelIdeal.τ).loc Cert.KernelIdeal.main_arg1)), ?_, ?_⟩
  · exact (θ_run Cert.KernelIdeal.defs _ _).mono (fun _ h c => ⟨(h c).2.2, (h c).1, (h c).2.1⟩) (Cert.Proof.Ideal.run_main (F := Ideal) m ρ)
  · refine (θ_run Cert.ReferenceIdeal.defs _ _).mono (fun _ h c => ⟨?_, (h c).2.1, (h c).2.2⟩) (Cert.ReferenceIdeal.RefValue.run m' ρ')
    rw [(h c).1, (hagree c).2]

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
